-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32x10 : Shape := ⟨2, ![32, 10]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32x10 : S_.BroadcastsInDim S32x10 (![] : Fin 0 → Fin S32x10.rank)
  reducesTo_S32x10_S_d0_1 : S32x10.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2048x4096 .f32) (main_arg1 : FVec F S32x10 .f32) (main_arg2 : FVec F S32 .f32) (main_arg3 : FVec F S1x32 .f32) (main_arg4 : FVec F S1 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S32x10 .f32 := Host.absf main_arg1
  let main_cst_0 : FVec F S_ .f32 := constant S_ .f32 0x7F800000#32
  let main_v5 : FVec F S32x10 .f32 := broadcastInDim S32x10 ![] bcast_S_S32x10 main_cst_0
  let main_v6 : IVec S32x10 1 := cmpf .olt main_v4 main_v5
  let main_c_1 : IVec S_ 1 := constantI S_ 1 1#1
  let main_v7 : IVec S_ 1 := (fun x v => Host.reduce IntOp.andi x v reducesTo_S32x10_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_v13 main_v16
-- ==== Kernel.lean ====
abbrev S2048x4096 : Shape := ⟨2, ![2048, 4096]⟩
abbrev S32x10 : Shape := ⟨2, ![32, 10]⟩
abbrev S32 : Shape := ⟨1, ![32]⟩
abbrev S1x32 : Shape := ⟨2, ![1, 32]⟩
abbrev S1 : Shape := ⟨1, ![1]⟩
abbrev S_ : Shape := ⟨0, ![]⟩
abbrev S2048x4224 : Shape := ⟨2, ![2048, 4224]⟩
abbrev S32x1 : Shape := ⟨2, ![32, 1]⟩
abbrev S1x1 : Shape := ⟨2, ![1, 1]⟩
abbrev S128x4224 : Shape := ⟨2, ![128, 4224]⟩
abbrev S128x4096 : Shape := ⟨2, ![128, 4096]⟩
abbrev S128x32x256 : Shape := ⟨3, ![128, 32, 256]⟩
abbrev S128x256 : Shape := ⟨2, ![128, 256]⟩
abbrev S128x1x256 : Shape := ⟨3, ![128, 1, 256]⟩
abbrev S1x32x1 : Shape := ⟨3, ![1, 32, 1]⟩
abbrev S2048x4086 : Shape := ⟨2, ![2048, 4086]⟩
abbrev S2048x1 : Shape := ⟨2, ![2048, 1]⟩
abbrev S2048x10 : Shape := ⟨2, ![2048, 10]⟩

abbrev nBuf : Space → Nat
  | .hbm => 16
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S32x10, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S2048x4224, .f32⟩
  | .hbm, ⟨8, _⟩ => ⟨S32x1, .f32⟩
  | .hbm, ⟨9, _⟩ => ⟨S32x1, .f32⟩
  | .hbm, ⟨10, _⟩ => ⟨S1x1, .f32⟩
  | .hbm, ⟨11, _⟩ => ⟨S2048x4096, .f32⟩
  | .hbm, ⟨12, _⟩ => ⟨S2048x4086, .f32⟩
  | .hbm, ⟨13, _⟩ => ⟨S2048x1, .f32⟩
  | .hbm, ⟨14, _⟩ => ⟨S2048x10, .f32⟩
  | .hbm, ⟨15, _⟩ => ⟨S2048x4096, .f32⟩
  | .local _ .vmem, ⟨0, _⟩ => ⟨S128x4224, .f32⟩
  | .local _ .vmem, ⟨1, _⟩ => ⟨S128x4224, .f32⟩
  | .local _ .vmem, ⟨2, _⟩ => ⟨S32x10, .f32⟩
  | .local _ .vmem, ⟨3, _⟩ => ⟨S32x1, .f32⟩
  | .local _ .vmem, ⟨4, _⟩ => ⟨S32x1, .f32⟩
  | .local _ .vmem, ⟨5, _⟩ => ⟨S1x1, .f32⟩
  | .local _ .vmem, ⟨6, _⟩ => ⟨S128x4096, .f32⟩
  | .local _ .vmem, ⟨7, _⟩ => ⟨S128x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S2048x4096_S2048x4224_000_01280 : S2048x4096.Pads (![0, 0] : Fin 2 → Nat) ![0, 128] ![0, 0] S2048x4224
  h_S_ : 0 < S_.numel
  shapeCasts_S32_S32x1 : S32.ShapeCasts S32x1
  shapeCasts_S1x32_S32x1 : S1x32.ShapeCasts S32x1
  shapeCasts_S1_S1x1 : S1.ShapeCasts S1x1
  inb_S32x10_S32x10_0_0 : ∀ a, (![0, 0] : Fin 2 → Nat) a + S32x10.size a ≤ S32x10.size a
  h_S32x10 : 0 < S32x10.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x4224_S128x256_0_0 : ∀ a, (![0, 0] : Fin 2 → Nat) a + S128x256.size a ≤ S128x4224.size a
  h_S128x256 : 0 < S128x256.numel
  shapeCasts_S128x256_S128x256 : S128x256.ShapeCasts S128x256
  slices_S32x10_o0_0_S32x1 : S32x10.Slices ![0, 0] S32x1
  shapeCasts_S128x256_S128x1x256 : S128x256.ShapeCasts S128x1x256
  shapeCasts_S32x1_S1x32x1 : S32x1.ShapeCasts S1x32x1
  broadcasts_S128x1x256_S128x32x256 : S128x1x256.Broadcasts S128x32x256
  broadcasts_S1x32x1_S128x32x256 : S1x32x1.Broadcasts S128x32x256
  inb_S128x4224_S128x256_0_1 : ∀ a, (![0, 1] : Fin 2 → Nat) a + S128x256.size a ≤ S128x4224.size a
  slices_S32x10_o0_1_S32x1 : S32x10.Slices ![0, 1] S32x1
  inb_S128x4224_S128x256_0_2 : ∀ a, (![0, 2] : Fin 2 → Nat) a + S128x256.size a ≤ S128x4224.size a
  slices_S32x10_o0_2_S32x1 : S32x10.Slices ![0, 2] S32x1
  inb_S128x4224_S128x256_0_3 : ∀ a, (![0, 3] : Fin 2 → Nat) a + S128x256.size a ≤ S128x4224.size a
  slices_S32x10_o0_3_S32x1 : S32x10.Slices ![0, 3] S32x1
  inb_S128x4224_S128x256_0_4 : ∀ a, (![0, 4] : Fin 2 → Nat) a + S128x256.size a ≤ S128x4224.size a
  slices_S32x10_o0_4_S32x1 : S32x10.Slices ![0, 4] S32x1
  inb_S128x4224_S128x256_0_5 : ∀ a, (![0, 5] : Fin 2 → Nat) a + S128x256.size a ≤ S128x4224.size a
  slices_S32x10_o0_5_S32x1 : S32x10.Slices ![0, 5] S32x1
  inb_S128x4224_S128x256_0_6 : ∀ a, (![0, 6] : Fin 2 → Nat) a + S128x256.size a ≤ S128x4224.size a
  slices_S32x10_o0_6_S32x1 : S32x10.Slices ![0, 6] S32x1
  inb_S128x4224_S128x256_0_7 : ∀ a, (![0, 7] : Fin 2 → Nat) a + S128x256.size a ≤ S128x4224.size a
  slices_S32x10_o0_7_S32x1 : S32x10.Slices ![0, 7] S32x1
  inb_S128x4224_S128x256_0_8 : ∀ a, (![0, 8] : Fin 2 → Nat) a + S128x256.size a ≤ S128x4224.size a
  slices_S32x10_o0_8_S32x1 : S32x10.Slices ![0, 8] S32x1
  inb_S128x4224_S128x256_0_9 : ∀ a, (![0, 9] : Fin 2 → Nat) a + S128x256.size a ≤ S128x4224.size a
  slices_S32x10_o0_9_S32x1 : S32x10.Slices ![0, 9] S32x1
  reduces_S128x32x256_S128x256 : S128x32x256.Reduces [1] S128x256
  broadcasts_S1x1_S128x256 : S1x1.Broadcasts S128x256
  inb_S128x4096_S128x256_0_0 : ∀ a, (![0, 0] : Fin 2 → Nat) a + S128x256.size a ≤ S128x4096.size a
  inb_S128x4224_S128x256_0_256 : ∀ a, (![0, 256] : Fin 2 → Nat) a + S128x256.size a ≤ S128x4224.size a
  inb_S128x4224_S128x256_0_257 : ∀ a, (![0, 257] : Fin 2 → Nat) a + S128x256.size a ≤ S128x4224.size a
  inb_S128x4224_S128x256_0_258 : ∀ a, (![0, 258] : Fin 2 → Nat) a + S128x256.size a ≤ S128x4224.size a
  inb_S128x4224_S128x256_0_259 : ∀ a, (![0, 259] : Fin 2 → Nat) a + S128x256.size a ≤ S128x4224.size a
  inb_S128x4224_S128x256_0_260 : ∀ a, (![0, 260] : Fin 2 → Nat) a + S128x256.size a ≤ S128x4224.size a
  inb_S128x4224_S128x256_0_261 : ∀ a, (![0, 261] : Fin 2 → Nat) a + S128x256.size a ≤ S128x4224.size a
  inb_S128x4224_S128x256_0_262 : ∀ a, (![0, 262] : Fin 2 → Nat) a + S128x256.size a ≤ S128x4224.size a
  inb_S128x4224_S128x256_0_263 : ∀ a, (![0, 263] : Fin 2 → Nat) a + S128x256.size a ≤ S128x4224.size a
  inb_S128x4224_S128x256_0_264 : ∀ a, (![0, 264] : Fin 2 → Nat) a + S128x256.size a ≤ S128x4224.size a
  inb_S128x4224_S128x256_0_265 : ∀ a, (![0, 265] : Fin 2 → Nat) a + S128x256.size a ≤ S128x4224.size a
  inb_S128x4096_S128x256_0_256 : ∀ a, (![0, 256] : Fin 2 → Nat) a + S128x256.size a ≤ S128x4096.size a
  inb_S128x4224_S128x256_0_512 : ∀ a, (![0, 512] : Fin 2 → Nat) a + S128x256.size a ≤ S128x4224.size a
  inb_S128x4224_S128x256_0_513 : ∀ a, (![0, 513] : Fin 2 → Nat) a + S128x256.size a ≤ S128x4224.size a
  inb_S128x4224_S128x256_0_514 : ∀ a, (![0, 514] : Fin 2 → Nat) a + S128x256.size a ≤ S128x4224.size a
  inb_S128x4224_S128x256_0_515 : ∀ a, (![0, 515] : Fin 2 → Nat) a + S128x256.size a ≤ S128x4224.size a
  inb_S128x4224_S128x256_0_516 : ∀ a, (![0, 516] : Fin 2 → Nat) a + S128x256.size a ≤ S128x4224.size a
  inb_S128x4224_S128x256_0_517 : ∀ a, (![0, 517] : Fin 2 → Nat) a + S128x256.size a ≤ S128x4224.size a
  inb_S128x4224_S128x256_0_518 : ∀ a, (![0, 518] : Fin 2 → Nat) a + S128x256.size a ≤ S128x4224.size a
  inb_S128x4224_S128x256_0_519 : ∀ a, (![0, 519] : Fin 2 → Nat) a + S128x256.size a ≤ S128x4224.size a
  inb_S128x4224_S128x256_0_520 : ∀ a, (![0, 520] : Fin 2 → Nat) a + S128x256.size a ≤ S128x4224.size a
  inb_S128x4224_S128x256_0_521 : ∀ a, (![0, 521] : Fin 2 → Nat) a + S128x256.size a ≤ S128x4224.size a
  inb_S128x4096_S128x256_0_512 : ∀ a, (![0, 512] : Fin 2 → Nat) a + S128x256.size a ≤ S128x4096.size a
  inb_S128x4224_S128x256_0_768 : ∀ a, (![0, 768] : Fin 2 → Nat) a + S128x256.size a ≤ S128x4224.size a
  inb_S128x4224_S128x256_0_769 : ∀ a, (![0, 769] : Fin 2 → Nat) a + S128x256.size a ≤ S128x4224.size a
  inb_S128x4224_S128x256_0_770 : ∀ a, (![0, 770] : Fin 2 → Nat) a + S128x256.size a ≤ S128x4224.size a
  inb_S128x4224_S128x256_0_771 : ∀ a, (![0, 771] : Fin 2 → Nat) a + S128x256.size a ≤ S128x4224.size a
  inb_S128x4224_S128x256_0_772 : ∀ a, (![0, 772] : Fin 2 → Nat) a + S128x256.size a ≤ S128x4224.size a
  inb_S128x4224_S128x256_0_773 : ∀ a, (![0, 773] : Fin 2 → Nat) a + S128x256.size a ≤ S128x4224.size a
  inb_S128x4224_S128x256_0_774 : ∀ a, (![0, 774] : Fin 2 → Nat) a + S128x256.size a ≤ S128x4224.size a
  inb_S128x4224_S128x256_0_775 : ∀ a, (![0, 775] : Fin 2 → Nat) a + S128x256.size a ≤ S128x4224.size a
  inb_S128x4224_S128x256_0_776 : ∀ a, (![0, 776] : Fin 2 → Nat) a + S128x256.size a ≤ S128x4224.size a
  inb_S128x4224_S128x256_0_777 : ∀ a, (![0, 777] : Fin 2 → Nat) a + S128x256.size a ≤ S128x4224.size a
  inb_S128x4096_S128x256_0_768 : ∀ a, (![0, 768] : Fin 2 → Nat) a + S128x256.size a ≤ S128x4096.size a
  inb_S128x4224_S128x256_0_1024 : ∀ a, (![0, 1024] : Fin 2 → Nat) a + S128x256.size a ≤ S128x4224.size a
  inb_S128x4224_S128x256_0_1025 : ∀ a, (![0, 1025] : Fin 2 → Nat) a + S128x256.size a ≤ S128x4224.size a
  inb_S128x4224_S128x256_0_1026 : ∀ a, (![0, 1026] : Fin 2 → Nat) a + S128x256.size a ≤ S128x4224.size a
  inb_S128x4224_S128x256_0_1027 : ∀ a, (![0, 1027] : Fin 2 → Nat) a + S128x256.size a ≤ S128x4224.size a
  inb_S128x4224_S128x256_0_1028 : ∀ a, (![0, 1028] : Fin 2 → Nat) a + S128x256.size a ≤ S128x4224.size a
  inb_S128x4224_S128x256_0_1029 : ∀ a, (![0, 1029] : Fin 2 → Nat) a + S128x256.size a ≤ S128x4224.size a
  inb_S128x4224_S128x256_0_1030 : ∀ a, (![0, 1030] : Fin 2 → Nat) a + S128x256.size a ≤ S128x4224.size a
  inb_S128x4224_S128x256_0_1031 : ∀ a, (![0, 1031] : Fin 2 → Nat) a + S128x256.size a ≤ S128x4224.size a
  inb_S128x4224_S128x256_0_1032 : ∀ a, (![0, 1032] : Fin 2 → Nat) a + S128x256.size a ≤ S128x4224.size a
  inb_S128x4224_S128x256_0_1033 : ∀ a, (![0, 1033] : Fin 2 → Nat) a + S128x256.size a ≤ S128x4224.size a
  inb_S128x4096_S128x256_0_1024 : ∀ a, (![0, 1024] : Fin 2 → Nat) a + S128x256.size a ≤ S128x4096.size a
  inb_S128x4224_S128x256_0_1280 : ∀ a, (![0, 1280] : Fin 2 → Nat) a + S128x256.size a ≤ S128x4224.size a
  inb_S128x4224_S128x256_0_1281 : ∀ a, (![0, 1281] : Fin 2 → Nat) a + S128x256.size a ≤ S128x4224.size a
  inb_S128x4224_S128x256_0_1282 : ∀ a, (![0, 1282] : Fin 2 → Nat) a + S128x256.size a ≤ S128x4224.size a
  inb_S128x4224_S128x256_0_1283 : ∀ a, (![0, 1283] : Fin 2 → Nat) a + S128x256.size a ≤ S128x4224.size a
  inb_S128x4224_S128x256_0_1284 : ∀ a, (![0, 1284] : Fin 2 → Nat) a + S128x256.size a ≤ S128x4224.size a
  inb_S128x4224_S128x256_0_1285 : ∀ a, (![0, 1285] : Fin 2 → Nat) a + S128x256.size a ≤ S128x4224.size a
  inb_S128x4224_S128x256_0_1286 : ∀ a, (![0, 1286] : Fin 2 → Nat) a + S128x256.size a ≤ S128x4224.size a
  inb_S128x4224_S128x256_0_1287 : ∀ a, (![0, 1287] : Fin 2 → Nat) a + S128x256.size a ≤ S128x4224.size a
  inb_S128x4224_S128x256_0_1288 : ∀ a, (![0, 1288] : Fin 2 → Nat) a + S128x256.size a ≤ S128x4224.size a
  inb_S128x4224_S128x256_0_1289 : ∀ a, (![0, 1289] : Fin 2 → Nat) a + S128x256.size a ≤ S128x4224.size a
  inb_S128x4096_S128x256_0_1280 : ∀ a, (![0, 1280] : Fin 2 → Nat) a + S128x256.size a ≤ S128x4096.size a
  inb_S128x4224_S128x256_0_1536 : ∀ a, (![0, 1536] : Fin 2 → Nat) a + S128x256.size a ≤ S128x4224.size a
  inb_S128x4224_S128x256_0_1537 : ∀ a, (![0, 1537] : Fin 2 → Nat) a + S128x256.size a ≤ S128x4224.size a
  inb_S128x4224_S128x256_0_1538 : ∀ a, (![0, 1538] : Fin 2 → Nat) a + S128x256.size a ≤ S128x4224.size a
  inb_S128x4224_S128x256_0_1539 : ∀ a, (![0, 1539] : Fin 2 → Nat) a + S128x256.size a ≤ S128x4224.size a
  inb_S128x4224_S128x256_0_1540 : ∀ a, (![0, 1540] : Fin 2 → Nat) a + S128x256.size a ≤ S128x4224.size a
  inb_S128x4224_S128x256_0_1541 : ∀ a, (![0, 1541] : Fin 2 → Nat) a + S128x256.size a ≤ S128x4224.size a
  inb_S128x4224_S128x256_0_1542 : ∀ a, (![0, 1542] : Fin 2 → Nat) a + S128x256.size a ≤ S128x4224.size a
  inb_S128x4224_S128x256_0_1543 : ∀ a, (![0, 1543] : Fin 2 → Nat) a + S128x256.size a ≤ S128x4224.size a
  inb_S128x4224_S128x256_0_1544 : ∀ a, (![0, 1544] : Fin 2 → Nat) a + S128x256.size a ≤ S128x4224.size a
  inb_S128x4224_S128x256_0_1545 : ∀ a, (![0, 1545] : Fin 2 → Nat) a + S128x256.size a ≤ S128x4224.size a
  inb_S128x4096_S128x256_0_1536 : ∀ a, (![0, 1536] : Fin 2 → Nat) a + S128x256.size a ≤ S128x4096.size a
  inb_S128x4224_S128x256_0_1792 : ∀ a, (![0, 1792] : Fin 2 → Nat) a + S128x256.size a ≤ S128x4224.size a
  inb_S128x4224_S128x256_0_1793 : ∀ a, (![0, 1793] : Fin 2 → Nat) a + S128x256.size a ≤ S128x4224.size a
  inb_S128x4224_S128x256_0_1794 : ∀ a, (![0, 1794] : Fin 2 → Nat) a + S128x256.size a ≤ S128x4224.size a
  inb_S128x4224_S128x256_0_1795 : ∀ a, (![0, 1795] : Fin 2 → Nat) a + S128x256.size a ≤ S128x4224.size a
  inb_S128x4224_S128x256_0_1796 : ∀ a, (![0, 1796] : Fin 2 → Nat) a + S128x256.size a ≤ S128x4224.size a
  inb_S128x4224_S128x256_0_1797 : ∀ a, (![0, 1797] : Fin 2 → Nat) a + S128x256.size a ≤ S128x4224.size a
  inb_S128x4224_S128x256_0_1798 : ∀ a, (![0, 1798] : Fin 2 → Nat) a + S128x256.size a ≤ S128x4224.size a
  inb_S128x4224_S128x256_0_1799 : ∀ a, (![0, 1799] : Fin 2 → Nat) a + S128x256.size a ≤ S128x4224.size a
  inb_S128x4224_S128x256_0_1800 : ∀ a, (![0, 1800] : Fin 2 → Nat) a + S128x256.size a ≤ S128x4224.size a
  inb_S128x4224_S128x256_0_1801 : ∀ a, (![0, 1801] : Fin 2 → Nat) a + S128x256.size a ≤ S128x4224.size a
  inb_S128x4096_S128x256_0_1792 : ∀ a, (![0, 1792] : Fin 2 → Nat) a + S128x256.size a ≤ S128x4096.size a
  inb_S128x4224_S128x256_0_2048 : ∀ a, (![0, 2048] : Fin 2 → Nat) a + S128x256.size a ≤ S128x4224.size a
  inb_S128x4224_S128x256_0_2049 : ∀ a, (![0, 2049] : Fin 2 → Nat) a + S128x256.size a ≤ S128x4224.size a
  inb_S128x4224_S128x256_0_2050 : ∀ a, (![0, 2050] : Fin 2 → Nat) a + S128x256.size a ≤ S128x4224.size a
  inb_S128x4224_S128x256_0_2051 : ∀ a, (![0, 2051] : Fin 2 → Nat) a + S128x256.size a ≤ S128x4224.size a
  inb_S128x4224_S128x256_0_2052 : ∀ a, (![0, 2052] : Fin 2 → Nat) a + S128x256.size a ≤ S128x4224.size a
  inb_S128x4224_S128x256_0_2053 : ∀ a, (![0, 2053] : Fin 2 → Nat) a + S128x256.size a ≤ S128x4224.size a
  inb_S128x4224_S128x256_0_2054 : ∀ a, (![0, 2054] : Fin 2 → Nat) a + S128x256.size a ≤ S128x4224.size a
  inb_S128x4224_S128x256_0_2055 : ∀ a, (![0, 2055] : Fin 2 → Nat) a + S128x256.size a ≤ S128x4224.size a
  inb_S128x4224_S128x256_0_2056 : ∀ a, (![0, 2056] : Fin 2 → Nat) a + S128x256.size a ≤ S128x4224.size a
  inb_S128x4224_S128x256_0_2057 : ∀ a, (![0, 2057] : Fin 2 → Nat) a + S128x256.size a ≤ S128x4224.size a
  inb_S128x4096_S128x256_0_2048 : ∀ a, (![0, 2048] : Fin 2 → Nat) a + S128x256.size a ≤ S128x4096.size a
  inb_S128x4224_S128x256_0_2304 : ∀ a, (![0, 2304] : Fin 2 → Nat) a + S128x256.size a ≤ S128x4224.size a
  inb_S128x4224_S128x256_0_2305 : ∀ a, (![0, 2305] : Fin 2 → Nat) a + S128x256.size a ≤ S128x4224.size a
  inb_S128x4224_S128x256_0_2306 : ∀ a, (![0, 2306] : Fin 2 → Nat) a + S128x256.size a ≤ S128x4224.size a
  inb_S128x4224_S128x256_0_2307 : ∀ a, (![0, 2307] : Fin 2 → Nat) a + S128x256.size a ≤ S128x4224.size a
  inb_S128x4224_S128x256_0_2308 : ∀ a, (![0, 2308] : Fin 2 → Nat) a + S128x256.size a ≤ S128x4224.size a
  inb_S128x4224_S128x256_0_2309 : ∀ a, (![0, 2309] : Fin 2 → Nat) a + S128x256.size a ≤ S128x4224.size a
  inb_S128x4224_S128x256_0_2310 : ∀ a, (![0, 2310] : Fin 2 → Nat) a + S128x256.size a ≤ S128x4224.size a
  inb_S128x4224_S128x256_0_2311 : ∀ a, (![0, 2311] : Fin 2 → Nat) a + S128x256.size a ≤ S128x4224.size a
  inb_S128x4224_S128x256_0_2312 : ∀ a, (![0, 2312] : Fin 2 → Nat) a + S128x256.size a ≤ S128x4224.size a
  inb_S128x4224_S128x256_0_2313 : ∀ a, (![0, 2313] : Fin 2 → Nat) a + S128x256.size a ≤ S128x4224.size a
  inb_S128x4096_S128x256_0_2304 : ∀ a, (![0, 2304] : Fin 2 → Nat) a + S128x256.size a ≤ S128x4096.size a
  inb_S128x4224_S128x256_0_2560 : ∀ a, (![0, 2560] : Fin 2 → Nat) a + S128x256.size a ≤ S128x4224.size a
  inb_S128x4224_S128x256_0_2561 : ∀ a, (![0, 2561] : Fin 2 → Nat) a + S128x256.size a ≤ S128x4224.size a
  inb_S128x4224_S128x256_0_2562 : ∀ a, (![0, 2562] : Fin 2 → Nat) a + S128x256.size a ≤ S128x4224.size a
  inb_S128x4224_S128x256_0_2563 : ∀ a, (![0, 2563] : Fin 2 → Nat) a + S128x256.size a ≤ S128x4224.size a
  inb_S128x4224_S128x256_0_2564 : ∀ a, (![0, 2564] : Fin 2 → Nat) a + S128x256.size a ≤ S128x4224.size a
  inb_S128x4224_S128x256_0_2565 : ∀ a, (![0, 2565] : Fin 2 → Nat) a + S128x256.size a ≤ S128x4224.size a
  inb_S128x4224_S128x256_0_2566 : ∀ a, (![0, 2566] : Fin 2 → Nat) a + S128x256.size a ≤ S128x4224.size a
  inb_S128x4224_S128x256_0_2567 : ∀ a, (![0, 2567] : Fin 2 → Nat) a + S128x256.size a ≤ S128x4224.size a
  inb_S128x4224_S128x256_0_2568 : ∀ a, (![0, 2568] : Fin 2 → Nat) a + S128x256.size a ≤ S128x4224.size a
  inb_S128x4224_S128x256_0_2569 : ∀ a, (![0, 2569] : Fin 2 → Nat) a + S128x256.size a ≤ S128x4224.size a
  inb_S128x4096_S128x256_0_2560 : ∀ a, (![0, 2560] : Fin 2 → Nat) a + S128x256.size a ≤ S128x4096.size a
  inb_S128x4224_S128x256_0_2816 : ∀ a, (![0, 2816] : Fin 2 → Nat) a + S128x256.size a ≤ S128x4224.size a
  inb_S128x4224_S128x256_0_2817 : ∀ a, (![0, 2817] : Fin 2 → Nat) a + S128x256.size a ≤ S128x4224.size a
  inb_S128x4224_S128x256_0_2818 : ∀ a, (![0, 2818] : Fin 2 → Nat) a + S128x256.size a ≤ S128x4224.size a
  inb_S128x4224_S128x256_0_2819 : ∀ a, (![0, 2819] : Fin 2 → Nat) a + S128x256.size a ≤ S128x4224.size a
  inb_S128x4224_S128x256_0_2820 : ∀ a, (![0, 2820] : Fin 2 → Nat) a + S128x256.size a ≤ S128x4224.size a
  inb_S128x4224_S128x256_0_2821 : ∀ a, (![0, 2821] : Fin 2 → Nat) a + S128x256.size a ≤ S128x4224.size a
  inb_S128x4224_S128x256_0_2822 : ∀ a, (![0, 2822] : Fin 2 → Nat) a + S128x256.size a ≤ S128x4224.size a
  inb_S128x4224_S128x256_0_2823 : ∀ a, (![0, 2823] : Fin 2 → Nat) a + S128x256.size a ≤ S128x4224.size a
  inb_S128x4224_S128x256_0_2824 : ∀ a, (![0, 2824] : Fin 2 → Nat) a + S128x256.size a ≤ S128x4224.size a
  inb_S128x4224_S128x256_0_2825 : ∀ a, (![0, 2825] : Fin 2 → Nat) a + S128x256.size a ≤ S128x4224.size a
  inb_S128x4096_S128x256_0_2816 : ∀ a, (![0, 2816] : Fin 2 → Nat) a + S128x256.size a ≤ S128x4096.size a
  inb_S128x4224_S128x256_0_3072 : ∀ a, (![0, 3072] : Fin 2 → Nat) a + S128x256.size a ≤ S128x4224.size a
  inb_S128x4224_S128x256_0_3073 : ∀ a, (![0, 3073] : Fin 2 → Nat) a + S128x256.size a ≤ S128x4224.size a
  inb_S128x4224_S128x256_0_3074 : ∀ a, (![0, 3074] : Fin 2 → Nat) a + S128x256.size a ≤ S128x4224.size a
  inb_S128x4224_S128x256_0_3075 : ∀ a, (![0, 3075] : Fin 2 → Nat) a + S128x256.size a ≤ S128x4224.size a
  inb_S128x4224_S128x256_0_3076 : ∀ a, (![0, 3076] : Fin 2 → Nat) a + S128x256.size a ≤ S128x4224.size a
  inb_S128x4224_S128x256_0_3077 : ∀ a, (![0, 3077] : Fin 2 → Nat) a + S128x256.size a ≤ S128x4224.size a
  inb_S128x4224_S128x256_0_3078 : ∀ a, (![0, 3078] : Fin 2 → Nat) a + S128x256.size a ≤ S128x4224.size a
  inb_S128x4224_S128x256_0_3079 : ∀ a, (![0, 3079] : Fin 2 → Nat) a + S128x256.size a ≤ S128x4224.size a
  inb_S128x4224_S128x256_0_3080 : ∀ a, (![0, 3080] : Fin 2 → Nat) a + S128x256.size a ≤ S128x4224.size a
  inb_S128x4224_S128x256_0_3081 : ∀ a, (![0, 3081] : Fin 2 → Nat) a + S128x256.size a ≤ S128x4224.size a
  inb_S128x4096_S128x256_0_3072 : ∀ a, (![0, 3072] : Fin 2 → Nat) a + S128x256.size a ≤ S128x4096.size a
  inb_S128x4224_S128x256_0_3328 : ∀ a, (![0, 3328] : Fin 2 → Nat) a + S128x256.size a ≤ S128x4224.size a
  inb_S128x4224_S128x256_0_3329 : ∀ a, (![0, 3329] : Fin 2 → Nat) a + S128x256.size a ≤ S128x4224.size a
  inb_S128x4224_S128x256_0_3330 : ∀ a, (![0, 3330] : Fin 2 → Nat) a + S128x256.size a ≤ S128x4224.size a
  inb_S128x4224_S128x256_0_3331 : ∀ a, (![0, 3331] : Fin 2 → Nat) a + S128x256.size a ≤ S128x4224.size a
  inb_S128x4224_S128x256_0_3332 : ∀ a, (![0, 3332] : Fin 2 → Nat) a + S128x256.size a ≤ S128x4224.size a
  inb_S128x4224_S128x256_0_3333 : ∀ a, (![0, 3333] : Fin 2 → Nat) a + S128x256.size a ≤ S128x4224.size a
  inb_S128x4224_S128x256_0_3334 : ∀ a, (![0, 3334] : Fin 2 → Nat) a + S128x256.size a ≤ S128x4224.size a
  inb_S128x4224_S128x256_0_3335 : ∀ a, (![0, 3335] : Fin 2 → Nat) a + S128x256.size a ≤ S128x4224.size a
  inb_S128x4224_S128x256_0_3336 : ∀ a, (![0, 3336] : Fin 2 → Nat) a + S128x256.size a ≤ S128x4224.size a
  inb_S128x4224_S128x256_0_3337 : ∀ a, (![0, 3337] : Fin 2 → Nat) a + S128x256.size a ≤ S128x4224.size a
  inb_S128x4096_S128x256_0_3328 : ∀ a, (![0, 3328] : Fin 2 → Nat) a + S128x256.size a ≤ S128x4096.size a
  inb_S128x4224_S128x256_0_3584 : ∀ a, (![0, 3584] : Fin 2 → Nat) a + S128x256.size a ≤ S128x4224.size a
  inb_S128x4224_S128x256_0_3585 : ∀ a, (![0, 3585] : Fin 2 → Nat) a + S128x256.size a ≤ S128x4224.size a
  inb_S128x4224_S128x256_0_3586 : ∀ a, (![0, 3586] : Fin 2 → Nat) a + S128x256.size a ≤ S128x4224.size a
  inb_S128x4224_S128x256_0_3587 : ∀ a, (![0, 3587] : Fin 2 → Nat) a + S128x256.size a ≤ S128x4224.size a
  inb_S128x4224_S128x256_0_3588 : ∀ a, (![0, 3588] : Fin 2 → Nat) a + S128x256.size a ≤ S128x4224.size a
  inb_S128x4224_S128x256_0_3589 : ∀ a, (![0, 3589] : Fin 2 → Nat) a + S128x256.size a ≤ S128x4224.size a
  inb_S128x4224_S128x256_0_3590 : ∀ a, (![0, 3590] : Fin 2 → Nat) a + S128x256.size a ≤ S128x4224.size a
  inb_S128x4224_S128x256_0_3591 : ∀ a, (![0, 3591] : Fin 2 → Nat) a + S128x256.size a ≤ S128x4224.size a
  inb_S128x4224_S128x256_0_3592 : ∀ a, (![0, 3592] : Fin 2 → Nat) a + S128x256.size a ≤ S128x4224.size a
  inb_S128x4224_S128x256_0_3593 : ∀ a, (![0, 3593] : Fin 2 → Nat) a + S128x256.size a ≤ S128x4224.size a
  inb_S128x4096_S128x256_0_3584 : ∀ a, (![0, 3584] : Fin 2 → Nat) a + S128x256.size a ≤ S128x4096.size a
  inb_S128x4224_S128x256_0_3840 : ∀ a, (![0, 3840] : Fin 2 → Nat) a + S128x256.size a ≤ S128x4224.size a
  inb_S128x4224_S128x256_0_3841 : ∀ a, (![0, 3841] : Fin 2 → Nat) a + S128x256.size a ≤ S128x4224.size a
  inb_S128x4224_S128x256_0_3842 : ∀ a, (![0, 3842] : Fin 2 → Nat) a + S128x256.size a ≤ S128x4224.size a
  inb_S128x4224_S128x256_0_3843 : ∀ a, (![0, 3843] : Fin 2 → Nat) a + S128x256.size a ≤ S128x4224.size a
  inb_S128x4224_S128x256_0_3844 : ∀ a, (![0, 3844] : Fin 2 → Nat) a + S128x256.size a ≤ S128x4224.size a
  inb_S128x4224_S128x256_0_3845 : ∀ a, (![0, 3845] : Fin 2 → Nat) a + S128x256.size a ≤ S128x4224.size a
  inb_S128x4224_S128x256_0_3846 : ∀ a, (![0, 3846] : Fin 2 → Nat) a + S128x256.size a ≤ S128x4224.size a
  inb_S128x4224_S128x256_0_3847 : ∀ a, (![0, 3847] : Fin 2 → Nat) a + S128x256.size a ≤ S128x4224.size a
  inb_S128x4224_S128x256_0_3848 : ∀ a, (![0, 3848] : Fin 2 → Nat) a + S128x256.size a ≤ S128x4224.size a
  inb_S128x4224_S128x256_0_3849 : ∀ a, (![0, 3849] : Fin 2 → Nat) a + S128x256.size a ≤ S128x4224.size a
  inb_S128x4096_S128x256_0_3840 : ∀ a, (![0, 3840] : Fin 2 → Nat) a + S128x256.size a ≤ S128x4096.size a
  slices_S2048x4096_S2048x4086_0_0 : S2048x4096.Slices ![0, 0] S2048x4086
  slices_S2048x4086_S2048x1_0_0 : S2048x4086.Slices ![0, 0] S2048x1
  bcast_S2048x1_S2048x10_0_1 : S2048x1.BroadcastsInDim S2048x10 (![0, 1] : Fin 2 → Fin S2048x10.rank)
  concatenates_S2048x10_S2048x4086_S2048x4096_d1 : Shape.Concatenates [S2048x10, S2048x4086] S2048x4096 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4224.size a ≤ S2048x4224.size a
  hwx0_0 : ∀ i : grid0.Coords, EltTy.bits .f32 = 32 ∨ (Rect.block (s := S2048x4224) S128x4224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x10.size a ≤ S32x10.size a
  hwx0_1 : ∀ i : grid0.Coords, EltTy.bits .f32 = 32 ∨ (Rect.block (s := S32x10) S32x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S2048x4096.size a
  hwx0_5 : ∀ i : grid0.Coords, EltTy.bits .f32 = 32 ∨ (Rect.block (s := S2048x4096) S128x4096.size (cc0_transform_5 i) (hinb0_5 i)).WholeWords (EltTy.packing .f32)

variable [Facts₀]

abbrev win0_0 : Pipeline.Window sig grid0 :=
  Pipeline.Window.ofSpec (Memref.whole main_v0) S128x4224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S32x10 : Shape := ⟨2, ![32, 10]⟩
abbrev S32 : Shape := ⟨1, ![32]⟩
abbrev S1x32 : Shape := ⟨2, ![1, 32]⟩
abbrev S1 : Shape := ⟨1, ![1]⟩
abbrev S4086 : Shape := ⟨1, ![4086]⟩
abbrev S4086x1 : Shape := ⟨2, ![4086, 1]⟩
abbrev S10 : Shape := ⟨1, ![10]⟩
abbrev S1x10 : Shape := ⟨2, ![1, 10]⟩
abbrev S4086x10 : Shape := ⟨2, ![4086, 10]⟩
abbrev S_ : Shape := ⟨0, ![]⟩
abbrev S4086x10x1 : Shape := ⟨3, ![4086, 10, 1]⟩
abbrev S2048x4086x10 : Shape := ⟨3, ![2048, 4086, 10]⟩
abbrev S2048x4086x32 : Shape := ⟨3, ![2048, 4086, 32]⟩
abbrev S1x1x32 : Shape := ⟨3, ![1, 1, 32]⟩
abbrev S2048x4086x1 : Shape := ⟨3, ![2048, 4086, 1]⟩
abbrev S1x1x1 : Shape := ⟨3, ![1, 1, 1]⟩
abbrev S2048x4086 : Shape := ⟨2, ![2048, 4086]⟩
abbrev S2048x1 : Shape := ⟨2, ![2048, 1]⟩
abbrev S2048x10 : Shape := ⟨2, ![2048, 10]⟩

abbrev nBuf : Space → Nat
  | .hbm => 47
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S32x10, .f32⟩
  | .hbm, ⟨2, _⟩ => ⟨S32, .f32⟩
  | .hbm, ⟨3, _⟩ => ⟨S1x32, .f32⟩
  | .hbm, ⟨4, _⟩ => ⟨S1, .f32⟩
  | .hbm, ⟨5, _⟩ => ⟨S4086, .i32⟩
  | .hbm, ⟨6, _⟩ => ⟨S4086x1, .i32⟩
  | .hbm, ⟨7, _⟩ => ⟨S10, .i32⟩
  | .hbm, ⟨8, _⟩ => ⟨S1x10, .i32⟩
  | .hbm, ⟨9, _⟩ => ⟨S4086x10, .i32⟩
  | .hbm, ⟨10, _⟩ => ⟨S4086x10, .i32⟩
  | .hbm, ⟨11, _⟩ => ⟨S4086x10, .i32⟩
  | .hbm, ⟨12, _⟩ => ⟨S_, .i32⟩
  | .hbm, ⟨13, _⟩ => ⟨S4086x10, .i32⟩
  | .hbm, ⟨14, _⟩ => ⟨S4086x10, .i1⟩
  | .hbm, ⟨15, _⟩ => ⟨S_, .i32⟩
  | .hbm, ⟨16, _⟩ => ⟨S4086x10, .i32⟩
  | .hbm, ⟨17, _⟩ => ⟨S4086x10, .i32⟩
  | .hbm, ⟨18, _⟩ => ⟨S4086x10, .i32⟩
  | .hbm, ⟨19, _⟩ => ⟨S4086x10x1, .i32⟩
  | .hbm, ⟨20, _⟩ => ⟨S2048x4086x10, .f32⟩
  | .hbm, ⟨21, _⟩ => ⟨S2048x4086x32, .f32⟩
  | .hbm, ⟨22, _⟩ => ⟨S1x1x32, .f32⟩
  | .hbm, ⟨23, _⟩ => ⟨S2048x4086x32, .f32⟩
  | .hbm, ⟨24, _⟩ => ⟨S2048x4086x32, .f32⟩
  | .hbm, ⟨25, _⟩ => ⟨S_, .f32⟩
  | .hbm, ⟨26, _⟩ => ⟨S2048x4086x32, .f32⟩
  | .hbm, ⟨27, _⟩ => ⟨S2048x4086x32, .f32⟩
  | .hbm, ⟨28, _⟩ => ⟨S2048x4086x1, .f32⟩
  | .hbm, ⟨29, _⟩ => ⟨S1x1x1, .f32⟩
  | .hbm, ⟨30, _⟩ => ⟨S2048x4086x1, .f32⟩
  | .hbm, ⟨31, _⟩ => ⟨S2048x4086x1, .f32⟩
  | .hbm, ⟨32, _⟩ => ⟨S2048x4086x1, .f32⟩
  | .hbm, ⟨33, _⟩ => ⟨S2048x4086x1, .f32⟩
  | .hbm, ⟨34, _⟩ => ⟨S_, .f32⟩
  | .hbm, ⟨35, _⟩ => ⟨S2048x4086x1, .f32⟩
  | .hbm, ⟨36, _⟩ => ⟨S2048x4086x1, .f32⟩
  | .hbm, ⟨37, _⟩ => ⟨S_, .f32⟩
  | .hbm, ⟨38, _⟩ => ⟨S2048x4086x1, .f32⟩
  | .hbm, ⟨39, _⟩ => ⟨S2048x4086x1, .f32⟩
  | .hbm, ⟨40, _⟩ => ⟨S2048x4086, .f32⟩
  | .hbm, ⟨41, _⟩ => ⟨S_, .f32⟩
  | .hbm, ⟨42, _⟩ => ⟨S2048x4086, .f32⟩
  | .hbm, ⟨43, _⟩ => ⟨S2048x4086, .f32⟩
  | .hbm, ⟨44, _⟩ => ⟨S2048x1, .f32⟩
  | .hbm, ⟨45, _⟩ => ⟨S2048x10, .f32⟩
  | .hbm, ⟨46, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S4086_S4086x1_0 : S4086.BroadcastsInDim S4086x1 (![0] : Fin 1 → Fin S4086x1.rank)
  bcast_S10_S1x10_1 : S10.BroadcastsInDim S1x10 (![1] : Fin 1 → Fin S1x10.rank)
  bcast_S4086x1_S4086x10_0_1 : S4086x1.BroadcastsInDim S4086x10 (![0, 1] : Fin 2 → Fin S4086x10.rank)
  bcast_S1x10_S4086x10_0_1 : S1x10.BroadcastsInDim S4086x10 (![0, 1] : Fin 2 → Fin S4086x10.rank)
  bcast_S_S4086x10 : S_.BroadcastsInDim S4086x10 (![] : Fin 0 → Fin S4086x10.rank)
  bcast_S4086x10_S4086x10x1_0_1 : S4086x10.BroadcastsInDim S4086x10x1 (![0, 1] : Fin 2 → Fin S4086x10x1.rank)
  bcast_S32_S1x1x32_2 : S32.BroadcastsInDim S1x1x32 (![2] : Fin 1 → Fin S1x1x32.rank)
  bcast_S1x1x32_S2048x4086x32_0_1_2 : S1x1x32.BroadcastsInDim S2048x4086x32 (![0, 1, 2] : Fin 3 → Fin S2048x4086x32.rank)
  bcast_S_S2048x4086x32 : S_.BroadcastsInDim S2048x4086x32 (![] : Fin 0 → Fin S2048x4086x32.rank)
  bcast_S1_S1x1x1_2 : S1.BroadcastsInDim S1x1x1 (![2] : Fin 1 → Fin S1x1x1.rank)
  bcast_S1x1x1_S2048x4086x1_0_1_2 : S1x1x1.BroadcastsInDim S2048x4086x1 (![0, 1, 2] : Fin 3 → Fin S2048x4086x1.rank)
  bcast_S_S2048x4086x1 : S_.BroadcastsInDim S2048x4086x1 (![] : Fin 0 → Fin S2048x4086x1.rank)
  shapeCasts_S2048x4086x1_S2048x4086 : S2048x4086x1.ShapeCasts S2048x4086
  bcast_S_S2048x4086 : S_.BroadcastsInDim S2048x4086 (![] : Fin 0 → Fin S2048x4086.rank)
  slices_S2048x4086_S2048x1_0_0 : S2048x4086.Slices ![0, 0] S2048x1
  bcast_S2048x1_S2048x10_0_1 : S2048x1.BroadcastsInDim S2048x10 (![0, 1] : Fin 2 → Fin S2048x10.rank)
  concatenates_S2048x10_S2048x4086_S2048x4096_d1 : Shape.Concatenates [S2048x10, S2048x4086] S2048x4096 1
  gather_S2048x4096_S4086x10x1_S2048x4086x10_0_1_n_n_1_2_20481_wf : GatherDims.WF S2048x4096 S4086x10x1 S2048x4086x10 [0] [1] [] [1] [] 2 ![2048, 1]
  dot_S2048x4086x10_S32x10_S2048x4086x32_2_1_01_0_n_n_wf : DotDims.WF S2048x4086x10 S32x10 S2048x4086x32 [2] [1] [0, 1] [0] [] []
  dot_S2048x4086x32_S1x32_S2048x4086x1_2_1_01_0_n_n_wf : DotDims.WF S2048x4086x32 S1x32 S2048x4086x1 [2] [1] [0, 1] [0] [] []

variable [Facts₀]

def gather_S2048x4096_S4086x10x1_S2048x4086x10_0_1_n_n_1_2_20481 : GatherDims S2048x4096 S4086x10x1 S2048x4086x10 where
  offsetDims := [0]
  collapsedSliceDims := [1]
  operandBatchingDims := []
  startIndicesBatchingDims := []
  startIndexMap := [1]
  indexVectorDim := 2
  sliceSizes := ![2048, 1]
  wf := gather_S2048x4096_S4086x10x1_S2048x4086x10_0_1_n_n_1_2_20481_wf
def dot_S2048x4086x10_S32x10_S2048x4086x32_2_1_01_0_n_n : DotDims S2048x4086x10 S32x10 S2048x4086x32 where
  lhsContracting := [2]
  rhsContracting := [1]
  lhsNonContracting := [0, 1]
  rhsNonContracting := [0]
  lhsBatch := []
  rhsBatch := []
  wf := dot_S2048x4086x10_S32x10_S2048x4086x32_2_1_01_0_n_n_wf
def dot_S2048x4086x32_S1x32_S2048x4086x1_2_1_01_0_n_n : DotDims S2048x4086x32 S1x32 S2048x4086x1 where
  lhsContracting := [2]
  rhsContracting := [1]
  lhsNonContracting := [0, 1]
  rhsNonContracting := [0]
  lhsBatch := []
  rhsBatch := []
  wf := dot_S2048x4086x32_S1x32_S2048x4086x1_2_1_01_0_n_n_wf

class Facts : Prop extends Facts₀ where

variable [Facts]
-- ==== Proof.LibOuterSum.lean ====
/-
  General lemmas: rank-three layout operations read at an index — a matrix `[a, c]` recast with a unit middle axis
  `[a, 1, c]`, and the three broadcasts to `[a, b, c]` that an outer sum of two matrices plus a row uses: along the middle
  axis from `[a, 1, c]`, along the leading axis from `[1, b, c]`, along both from `[1, 1, c]`. None mentions a program.
-/
import Idealize.ShloMosaic.Lib.ValueIdx
import Idealize.ShloMosaic.Lib.Pipeline.Value

noncomputable section

namespace Cert.OuterLib

open Idealize.ShloMosaic Idealize.ShloMosaic.ValueIdx

variable {α : Type}

/-- A matrix `[a, c]` recast to `[a, 1, c]` reads, at `(p, u, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- `[a, 1, c]` broadcast along its middle axis to `[a, b, c]` reads, at `(p, s, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (k : Fin c) :
    broadcastTo ⟨3, ![a, b, c]⟩ v h (ix3 p s k) = v (ix3 p (0 : Fin 1) k) := by
  refine broadcastTo_apply v h (ix3 p s k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- `[1, b, c]` broadcast along its leading axis to `[a, b, c]` reads, at `(p, s, k)`, the operand at `(0, s, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (s : Fin b) (k : Fin c) :
    broadcastTo ⟨3, ![a, b, c]⟩ v h (ix3 p s k) = v (ix3 (0 : Fin 1) s k) := by
  refine broadcastTo_apply v h (ix3 p s k) (ix3 (0 : Fin 1) s k) fun ax => ?_
  match ax with
  | ⟨0, _⟩ => rfl
  | ⟨1, _⟩ =>
    show s.val = if b = 1 then 0 else s.val
    split
    · have := s.isLt; omega
    · rfl
  | ⟨2, _⟩ =>
    show k.val = if c = 1 then 0 else k.val
    split
    · have := k.isLt; omega
    · rfl

/-- `[1, 1, c]` broadcast along both leading axes to `[a, b, c]` reads, at `(p, s, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.OuterLib

end
-- ==== Proof.Chunk.lean ====
/-
  One time-chunk of the sliding-window perceptron, as the vector unit computes it, and what it holds at an entry.

  A chunk is a [128, 256] block of outputs: 128 batch rows by 256 consecutive time steps. Its ten inputs are the
  [128, 256] blocks of the (padded) series shifted by k = 0 … 9 time steps. With the hidden axis in the middle, the
  chunk forms, in [128, 32, 256], the running sum over k of (input shifted by k) · (column k of the first layer's
  weights), adds the first bias, takes the positive part, multiplies by the second layer's weights, sums the hidden
  axis away, adds the second bias and halves the logistic of the result. Read at batch row p and time step q this is
      ½ · σ( Σ_h max(Σ_k x_k[p, q] · W1[h, k] + b1[h], 0) · W2[h] + b2 ).
-/
import proofs.«176096_j51960514347079_2_alg».proof.Proof.Gen.KernelIdeal
import proofs.«176096_j51960514347079_2_alg».proof.Proof.LibOuterSum
import Idealize.ShloMosaic.Lib.ValueIdx
import Idealize.ShloMosaic.Lib.Pipeline.Value
import Idealize.ShloMosaic.PureOps.Ideal.Laws

noncomputable section

namespace Cert.WindowMlp

open Idealize.ShloMosaic Idealize.ShloMosaic.ValueIdx Cert.KernelIdeal Cert.KernelIdeal.Gen Cert.OuterLib

variable {F : FTy → Type} [FloatOps F]

/-- One tap of the window: the inputs shifted by k, spread along the hidden axis, times column k of the first
    layer's weights, spread along batch and time. -/
def tap (W : Vec F S32x10 .f32) (k : Nat) (hk : S32x10.Slices ![0, k] S32x1) (x : Vec F S128x256 .f32) :
    FVec F S128x32x256 .f32 :=
  mulf (broadcastTo S128x32x256 (shapeCast S128x1x256 (shapeCast S128x256 x shapeCasts_S128x256_S128x256) shapeCasts_S128x256_S128x1x256) broadcasts_S128x1x256_S128x32x256)
    (broadcastTo S128x32x256 (shapeCast S1x32x1 (extractStridedSlice S32x1 ![0, k] W hk) shapeCasts_S32x1_S1x32x1) broadcasts_S1x32x1_S128x32x256)

/-- A column vector of the hidden axis, [32, 1], spread to [128, 32, 256]. -/
def hidden (v : Vec F S32x1 .f32) : FVec F S128x32x256 .f32 :=
  broadcastTo S128x32x256 (shapeCast S1x32x1 (shapeCast S32x1 v shapeCasts_S32x1_S32x1) shapeCasts_S32x1_S1x32x1) broadcasts_S1x32x1_S128x32x256

/-- The running sum of the ten taps from zero, in the order the chunk adds them. -/
def taps (W : Vec F S32x10 .f32) (x0 x1 x2 x3 x4 x5 x6 x7 x8 x9 : Vec F S128x256 .f32) : FVec F S128x32x256 .f32 :=
  addf (addf (addf (addf (addf (addf (addf (addf (addf (addf (broadcast S128x32x256 (Scalar.ofBits .f32 0x00000000#32))
    (tap W 0 slices_S32x10_o0_0_S32x1 x0)) (tap W 1 slices_S32x10_o0_1_S32x1 x1)) (tap W 2 slices_S32x10_o0_2_S32x1 x2))
    (tap W 3 slices_S32x10_o0_3_S32x1 x3)) (tap W 4 slices_S32x10_o0_4_S32x1 x4)) (tap W 5 slices_S32x10_o0_5_S32x1 x5))
    (tap W 6 slices_S32x10_o0_6_S32x1 x6)) (tap W 7 slices_S32x10_o0_7_S32x1 x7)) (tap W 8 slices_S32x10_o0_8_S32x1 x8))
    (tap W 9 slices_S32x10_o0_9_S32x1 x9)

/-- From the hidden pre-activations (before the first bias) to the chunk's outputs. -/
def head (b1 W2 : Vec F S32x1 .f32) (b2 : Vec F S1x1 .f32) (acc : FVec F S128x32x256 .f32) : FVec F S128x256 .f32 :=
  mulf (broadcast S128x256 (Scalar.ofBits .f32 0x3F000000#32))
    (logistic (addf
      (multiReduction .add [1] S128x256
        (mulf (maximumf (addf acc (hidden b1)) (broadcast S128x32x256 (Scalar.ofBits .f32 0x00000000#32))) (hidden W2))
        0x00000000#32 reduces_S128x32x256_S128x256 (.inl rfl) rfl)
      (broadcastTo S128x256 (shapeCast S1x1 b2 shapeCasts_S1x1_S1x1) broadcasts_S1x1_S128x256)))

/-- The chunk: its outputs from the weights and its ten shifted input blocks. -/
def chunk (W : Vec F S32x10 .f32) (b1 W2 : Vec F S32x1 .f32) (b2 : Vec F S1x1 .f32)
    (x0 x1 x2 x3 x4 x5 x6 x7 x8 x9 : Vec F S128x256 .f32) : FVec F S128x256 .f32 :=
  head b1 W2 b2 (taps W x0 x1 x2 x3 x4 x5 x6 x7 x8 x9)

end Cert.WindowMlp

end
-- ==== Proof.Spec.lean ====
/-
  The sliding-window perceptron over the extended reals, with no program in sight.

  One output of the network from a window of ten consecutive inputs x_0 … x_9 is
      cell x = ½ · σ( Σ_h max(Σ_k x_k · W1[h, k] + b1[h], 0) · W2[h] + b2 ),
  the sums over the 32 hidden units h and the 10 window positions k, σ the logistic function 1 / (1 + e^(−z)).
  The network's output array netOut has, at row b and time step i < 4086, the cell of the window
  x[b, i], …, x[b, i + 9] of the [2048, 4096] series.
-/
import Idealize.ShloMosaic.Lib.ValueIdx
import Idealize.ShloMosaic.PureOps.Ideal

noncomputable section

namespace Cert.WindowMlp

open Idealize.ShloMosaic Idealize.ShloMosaic.ValueIdx

/-- One output of the network from its window of ten inputs: ½ · σ(Σ_h max(Σ_k x_k · W1[h,k] + b1[h], 0) · W2[h] + b2). -/
def cell (x : Fin 10 → EReal) (W : Fin 32 → Fin 10 → EReal) (b1 W2 : Fin 32 → EReal) (b2 : EReal) : EReal :=
  Ideal.ofBits .f32 0x3F000000#32 * Ideal.logistic ((∑ h : Fin 32, max ((∑ k : Fin 10, x k * W h k) + b1 h) 0 * W2 h) + b2)

/-- The network's outputs for the 4086 full windows of each of the 2048 rows. -/
def netOut (x : (⟨2, ![2048, 4096]⟩ : Shape).Idx → EReal) (W : (⟨2, ![32, 10]⟩ : Shape).Idx → EReal)
    (b1 : (⟨1, ![32]⟩ : Shape).Idx → EReal) (W2 : (⟨2, ![1, 32]⟩ : Shape).Idx → EReal) (b2 : (⟨1, ![1]⟩ : Shape).Idx → EReal) :
    (⟨2, ![2048, 4086]⟩ : Shape).Idx → EReal :=
  fun i => cell (fun k => x (ix2 (i 0) ⟨(i 1).val + k.val, by have := idx2_lt1 i; have := k.isLt; omega⟩))
    (fun h k => W (ix2 h k)) (fun h => b1 (ix1 h)) (fun h => W2 (ix2 (0 : Fin 1) h)) (b2 (ix1 (0 : Fin 1)))

end Cert.WindowMlp

end
-- ==== Proof.ChunkValue.lean ====
/-
  What one chunk of the sliding-window perceptron holds at batch row p and time step q, over the extended reals:
      ½ · σ( Σ_h max(Σ_k x_k[p, q] · W1[h, k] + b1[h], 0) · W2[h] + b2 ),
  where x_k is the input block shifted by k. The running sum from zero that the chunk forms tap by tap is the sum over k
  (addition of extended reals is associative and commutative and the zero word is 0); nothing else is rearranged.
-/
import proofs.«176096_j51960514347079_2_alg».proof.Proof.Chunk
import proofs.«176096_j51960514347079_2_alg».proof.Proof.Spec

noncomputable section

namespace Cert.WindowMlp

open Idealize.ShloMosaic Idealize.ShloMosaic.ValueIdx Cert.KernelIdeal Cert.KernelIdeal.Gen Cert.OuterLib

/-- A tap at (p, h, q): the shifted input at (p, q) times the weight W1[h, k]. -/
theorem tap_apply (W : Vec Ideal S32x10 .f32) (k : Nat) (hk : S32x10.Slices ![0, k] S32x1) (hk10 : k < 10)
    (x : Vec Ideal S128x256 .f32) (p : Fin 128) (h : Fin 32) (q : Fin 256) :
    tap W k hk x (ix3 p h q) = x (ix2 p q) * W (ix2 h ⟨k, hk10⟩) := by
  unfold tap
  rw [mulf_apply]
  congr 1
  · rw [broadcastTo_a1c_abc_apply, shapeCast_ac_a1c_apply, shapeCast_self]
  · refine (broadcastTo_apply _ broadcasts_S1x32x1_S128x32x256 (ix3 p h q) (ix3 (0 : Fin 1) h (0 : Fin 1)) (fun a => ?_)).trans ?_
    · match a with
      | ⟨0, _⟩ => rfl
      | ⟨1, _⟩ => rfl
      | ⟨2, _⟩ => rfl
    · refine (shapeCast_apply _ shapeCasts_S32x1_S1x32x1 (ix3 (0 : Fin 1) h (0 : Fin 1)) (ix2 h (0 : Fin 1)) ?_).trans ?_
      · rw [Shape.rowMajor_val_two, Shape.rowMajor_val_three]
        show h.val * 1 + 0 = (0 * 32 + h.val) * 1 + 0
        omega
      · exact extractStridedSlice_apply _ W hk (ix2 h (0 : Fin 1)) (ix2 h ⟨k, hk10⟩) (fun a => by
          match a with
          | ⟨0, _⟩ => show h.val = 0 + h.val; omega
          | ⟨1, _⟩ => show k = k + 0; omega)

/-- A hidden-axis column vector spread to [128, 32, 256], at (p, h, q): its entry h. -/
theorem hidden_apply (v : Vec Ideal S32x1 .f32) (p : Fin 128) (h : Fin 32) (q : Fin 256) :
    hidden v (ix3 p h q) = v (ix2 h (0 : Fin 1)) := by
  unfold hidden
  refine (broadcastTo_apply _ broadcasts_S1x32x1_S128x32x256 (ix3 p h q) (ix3 (0 : Fin 1) h (0 : Fin 1)) (fun a => ?_)).trans ?_
  · match a with
    | ⟨0, _⟩ => rfl
    | ⟨1, _⟩ => rfl
    | ⟨2, _⟩ => rfl
  · refine (shapeCast_apply _ shapeCasts_S32x1_S1x32x1 (ix3 (0 : Fin 1) h (0 : Fin 1)) (ix2 h (0 : Fin 1)) ?_).trans ?_
    · rw [Shape.rowMajor_val_two, Shape.rowMajor_val_three]
      show h.val * 1 + 0 = (0 * 32 + h.val) * 1 + 0
      omega
    · rw [shapeCast_self]

/-- The running sum of the taps at (p, h, q) is the sum over the window. -/
theorem taps_apply (W : Vec Ideal S32x10 .f32) (x0 x1 x2 x3 x4 x5 x6 x7 x8 x9 : Vec Ideal S128x256 .f32)
    (p : Fin 128) (h : Fin 32) (q : Fin 256) :
    taps W x0 x1 x2 x3 x4 x5 x6 x7 x8 x9 (ix3 p h q)
      = ∑ k : Fin 10, (![x0 (ix2 p q), x1 (ix2 p q), x2 (ix2 p q), x3 (ix2 p q), x4 (ix2 p q), x5 (ix2 p q), x6 (ix2 p q),
          x7 (ix2 p q), x8 (ix2 p q), x9 (ix2 p q)] : Fin 10 → EReal) k * W (ix2 h k) := by
  unfold taps
  simp only [addf_apply, tap_apply W _ _ (by decide : 0 < 10), tap_apply W _ _ (by decide : 1 < 10), tap_apply W _ _ (by decide : 2 < 10),
    tap_apply W _ _ (by decide : 3 < 10), tap_apply W _ _ (by decide : 4 < 10), tap_apply W _ _ (by decide : 5 < 10),
    tap_apply W _ _ (by decide : 6 < 10), tap_apply W _ _ (by decide : 7 < 10), tap_apply W _ _ (by decide : 8 < 10),
    tap_apply W _ _ (by decide : 9 < 10), broadcast_apply]
  show Ideal.ofBits .f32 0x00000000#32 + _ + _ + _ + _ + _ + _ + _ + _ + _ + _ = _
  rw [Ideal.ofBits_zero_f32, zero_add]
  simp only [Fin.sum_univ_succ, Fin.sum_univ_zero, add_zero]
  simp only [add_assoc]
  rfl

/-- The lane sum over the hidden axis of a [128, 32, 256] array, at (p, q): the plain sum over h. -/
theorem hiddenSum_apply (src : FVec Ideal S128x32x256 .f32) (p : Fin 128) (q : Fin 256) :
    multiReduction .add [1] S128x256 src 0x00000000#32 reduces_S128x32x256_S128x256 (.inl rfl) rfl (ix2 p q)
      = ∑ h : Fin 32, src (ix3 p h q) :=
  (Ideal.multiReduction_add_single src 0x00000000#32 reduces_S128x32x256_S128x256 (.inl rfl) rfl (ix2 p q)).trans
    (Finset.sum_congr rfl fun h _ => congrArg src (funext fun a => Fin.ext (by
      match a with
      | ⟨0, _⟩ => rfl
      | ⟨1, _⟩ => rfl
      | ⟨2, _⟩ => rfl)))

/-- The second bias, a [1, 1] array spread to [128, 256], at (p, q): its one entry. -/
theorem bias2_apply (b2 : Vec Ideal S1x1 .f32) (p : Fin 128) (q : Fin 256) :
    broadcastTo S128x256 (shapeCast S1x1 b2 shapeCasts_S1x1_S1x1) broadcasts_S1x1_S128x256 (ix2 p q) = b2 (ix2 (0 : Fin 1) (0 : Fin 1)) := by
  refine (broadcastTo_apply _ broadcasts_S1x1_S128x256 (ix2 p q) (ix2 (0 : Fin 1) (0 : Fin 1)) (fun a => ?_)).trans ?_
  · match a with
    | ⟨0, _⟩ => rfl
    | ⟨1, _⟩ => rfl
  · rw [shapeCast_self]

/-- From the hidden pre-activations to an output, at (p, q). -/
theorem head_apply (b1 W2 : Vec Ideal S32x1 .f32) (b2 : Vec Ideal S1x1 .f32) (acc : FVec Ideal S128x32x256 .f32)
    (p : Fin 128) (q : Fin 256) :
    head b1 W2 b2 acc (ix2 p q)
      = Ideal.ofBits .f32 0x3F000000#32 * Ideal.logistic ((∑ h : Fin 32, max (acc (ix3 p h q) + b1 (ix2 h (0 : Fin 1))) 0
          * W2 (ix2 h (0 : Fin 1))) + b2 (ix2 (0 : Fin 1) (0 : Fin 1))) := by
  unfold head
  show Ideal.ofBits .f32 0x3F000000#32 * Ideal.logistic (_ + _) = _
  rw [hiddenSum_apply, bias2_apply]
  simp only [mulf_apply, maximumf_apply, addf_apply, hidden_apply, broadcast_apply]
  show Ideal.ofBits .f32 0x3F000000#32 * Ideal.logistic ((∑ h : Fin 32, max (acc (ix3 p h q) + b1 (ix2 h (0 : Fin 1))) (Ideal.ofBits .f32 0x00000000#32)
          * W2 (ix2 h (0 : Fin 1))) + b2 (ix2 (0 : Fin 1) (0 : Fin 1))) = _
  rw [Ideal.ofBits_zero_f32]

/-- THE CHUNK AT AN ENTRY: the network's output from the window of its ten shifted inputs there. -/
theorem chunk_apply (W : Vec Ideal S32x10 .f32) (b1 W2 : Vec Ideal S32x1 .f32) (b2 : Vec Ideal S1x1 .f32)
    (x0 x1 x2 x3 x4 x5 x6 x7 x8 x9 : Vec Ideal S128x256 .f32) (p : Fin 128) (q : Fin 256) :
    chunk W b1 W2 b2 x0 x1 x2 x3 x4 x5 x6 x7 x8 x9 (ix2 p q)
      = cell ![x0 (ix2 p q), x1 (ix2 p q), x2 (ix2 p q), x3 (ix2 p q), x4 (ix2 p q), x5 (ix2 p q), x6 (ix2 p q),
          x7 (ix2 p q), x8 (ix2 p q), x9 (ix2 p q)] (fun h k => W (ix2 h k)) (fun h => b1 (ix2 h (0 : Fin 1)))
          (fun h => W2 (ix2 h (0 : Fin 1))) (b2 (ix2 (0 : Fin 1) (0 : Fin 1))) := by
  unfold chunk cell
  rw [head_apply]
  simp only [taps_apply]

end Cert.WindowMlp

end
-- ==== Proof.Payloads.lean ====
/-
  The body's sixteen stores, each one chunk of the sliding-window perceptron, and what the output block holds after
  them: at batch row p and time step j of the [128, 4096] block, the network's output from the window
  x[p, j], …, x[p, j + 9] of the block's [128, 4224] input (the series padded on the right).

  Chunk c covers time steps 256·c … 256·c + 255; its k-th input is the input block's [128, 256] rectangle at column
  256·c + k, so its entry (p, q) is the input at (p, 256·c + q + k): the window of time step j = 256·c + q.
-/
import proofs.«176096_j51960514347079_2_alg».proof.Proof.Gen.KernelIdeal.Frame
import proofs.«176096_j51960514347079_2_alg».proof.Proof.ChunkValue

set_option maxRecDepth 16384

noncomputable section

namespace Cert.WindowMlp

open Idealize.ShloMosaic Idealize.ShloMosaic.ValueIdx Cert.KernelIdeal Cert.KernelIdeal.Gen

/-- The ten consecutive entries of row p of a series padded to 4224 columns, from column j. -/
def window {R : Nat} (x : (⟨2, ![R, 4224]⟩ : Shape).Idx → EReal) (p : Fin R) (j : Fin 4096) : Fin 10 → EReal :=
  fun k => x (ix2 p ⟨j.val + k.val, by omega⟩)

/-- The output block as one function of the input block and the weights: entry (p, j) is the network's output from
    the window of row p at column j. -/
def blockOut (x0 : Vec Ideal S128x4224 .f32) (W : Vec Ideal S32x10 .f32) (b1 W2 : Vec Ideal S32x1 .f32)
    (b2 : Vec Ideal S1x1 .f32) : Vec Ideal S128x4096 .f32 :=
  fun y => cell (window x0 (y 0) (y 1)) (fun h k => W (ix2 h k)) (fun h => b1 (ix2 h (0 : Fin 1)))
    (fun h => W2 (ix2 h (0 : Fin 1))) (b2 (ix2 (0 : Fin 1) (0 : Fin 1)))

variable {F : FTy → Type} [FloatOps F]

/-- The body's sixteen stores, last first: each payload is the chunk of its ten shifted input rectangles. -/
theorem out0_5_chunks (x0 : Vec F S128x4224 .f32) (x1 : Vec F S32x10 .f32) (x2 : Vec F S32x1 .f32) (x3 : Vec F S32x1 .f32)
    (x4 : Vec F S1x1 .f32) :
    out0_5 x0 x1 x2 x3 x4 = View.canon ([
      ⟨r0_178, chunk (View.ld x1 r0_0) (View.ld x2 r0_1) (View.ld x3 r0_1) (View.ld x4 r0_2) (View.ld x0 r0_168) (View.ld x0 r0_169) (View.ld x0 r0_170) (View.ld x0 r0_171) (View.ld x0 r0_172) (View.ld x0 r0_173) (View.ld x0 r0_174) (View.ld x0 r0_175) (View.ld x0 r0_176) (View.ld x0 r0_177)⟩,
      ⟨r0_167, chunk (View.ld x1 r0_0) (View.ld x2 r0_1) (View.ld x3 r0_1) (View.ld x4 r0_2) (View.ld x0 r0_157) (View.ld x0 r0_158) (View.ld x0 r0_159) (View.ld x0 r0_160) (View.ld x0 r0_161) (View.ld x0 r0_162) (View.ld x0 r0_163) (View.ld x0 r0_164) (View.ld x0 r0_165) (View.ld x0 r0_166)⟩,
      ⟨r0_156, chunk (View.ld x1 r0_0) (View.ld x2 r0_1) (View.ld x3 r0_1) (View.ld x4 r0_2) (View.ld x0 r0_146) (View.ld x0 r0_147) (View.ld x0 r0_148) (View.ld x0 r0_149) (View.ld x0 r0_150) (View.ld x0 r0_151) (View.ld x0 r0_152) (View.ld x0 r0_153) (View.ld x0 r0_154) (View.ld x0 r0_155)⟩,
      ⟨r0_145, chunk (View.ld x1 r0_0) (View.ld x2 r0_1) (View.ld x3 r0_1) (View.ld x4 r0_2) (View.ld x0 r0_135) (View.ld x0 r0_136) (View.ld x0 r0_137) (View.ld x0 r0_138) (View.ld x0 r0_139) (View.ld x0 r0_140) (View.ld x0 r0_141) (View.ld x0 r0_142) (View.ld x0 r0_143) (View.ld x0 r0_144)⟩,
      ⟨r0_134, chunk (View.ld x1 r0_0) (View.ld x2 r0_1) (View.ld x3 r0_1) (View.ld x4 r0_2) (View.ld x0 r0_124) (View.ld x0 r0_125) (View.ld x0 r0_126) (View.ld x0 r0_127) (View.ld x0 r0_128) (View.ld x0 r0_129) (View.ld x0 r0_130) (View.ld x0 r0_131) (View.ld x0 r0_132) (View.ld x0 r0_133)⟩,
      ⟨r0_123, chunk (View.ld x1 r0_0) (View.ld x2 r0_1) (View.ld x3 r0_1) (View.ld x4 r0_2) (View.ld x0 r0_113) (View.ld x0 r0_114) (View.ld x0 r0_115) (View.ld x0 r0_116) (View.ld x0 r0_117) (View.ld x0 r0_118) (View.ld x0 r0_119) (View.ld x0 r0_120) (View.ld x0 r0_121) (View.ld x0 r0_122)⟩,
      ⟨r0_112, chunk (View.ld x1 r0_0) (View.ld x2 r0_1) (View.ld x3 r0_1) (View.ld x4 r0_2) (View.ld x0 r0_102) (View.ld x0 r0_103) (View.ld x0 r0_104) (View.ld x0 r0_105) (View.ld x0 r0_106) (View.ld x0 r0_107) (View.ld x0 r0_108) (View.ld x0 r0_109) (View.ld x0 r0_110) (View.ld x0 r0_111)⟩,
      ⟨r0_101, chunk (View.ld x1 r0_0) (View.ld x2 r0_1) (View.ld x3 r0_1) (View.ld x4 r0_2) (View.ld x0 r0_91) (View.ld x0 r0_92) (View.ld x0 r0_93) (View.ld x0 r0_94) (View.ld x0 r0_95) (View.ld x0 r0_96) (View.ld x0 r0_97) (View.ld x0 r0_98) (View.ld x0 r0_99) (View.ld x0 r0_100)⟩,
      ⟨r0_90, chunk (View.ld x1 r0_0) (View.ld x2 r0_1) (View.ld x3 r0_1) (View.ld x4 r0_2) (View.ld x0 r0_80) (View.ld x0 r0_81) (View.ld x0 r0_82) (View.ld x0 r0_83) (View.ld x0 r0_84) (View.ld x0 r0_85) (View.ld x0 r0_86) (View.ld x0 r0_87) (View.ld x0 r0_88) (View.ld x0 r0_89)⟩,
      ⟨r0_79, chunk (View.ld x1 r0_0) (View.ld x2 r0_1) (View.ld x3 r0_1) (View.ld x4 r0_2) (View.ld x0 r0_69) (View.ld x0 r0_70) (View.ld x0 r0_71) (View.ld x0 r0_72) (View.ld x0 r0_73) (View.ld x0 r0_74) (View.ld x0 r0_75) (View.ld x0 r0_76) (View.ld x0 r0_77) (View.ld x0 r0_78)⟩,
      ⟨r0_68, chunk (View.ld x1 r0_0) (View.ld x2 r0_1) (View.ld x3 r0_1) (View.ld x4 r0_2) (View.ld x0 r0_58) (View.ld x0 r0_59) (View.ld x0 r0_60) (View.ld x0 r0_61) (View.ld x0 r0_62) (View.ld x0 r0_63) (View.ld x0 r0_64) (View.ld x0 r0_65) (View.ld x0 r0_66) (View.ld x0 r0_67)⟩,
      ⟨r0_57, chunk (View.ld x1 r0_0) (View.ld x2 r0_1) (View.ld x3 r0_1) (View.ld x4 r0_2) (View.ld x0 r0_47) (View.ld x0 r0_48) (View.ld x0 r0_49) (View.ld x0 r0_50) (View.ld x0 r0_51) (View.ld x0 r0_52) (View.ld x0 r0_53) (View.ld x0 r0_54) (View.ld x0 r0_55) (View.ld x0 r0_56)⟩,
      ⟨r0_46, chunk (View.ld x1 r0_0) (View.ld x2 r0_1) (View.ld x3 r0_1) (View.ld x4 r0_2) (View.ld x0 r0_36) (View.ld x0 r0_37) (View.ld x0 r0_38) (View.ld x0 r0_39) (View.ld x0 r0_40) (View.ld x0 r0_41) (View.ld x0 r0_42) (View.ld x0 r0_43) (View.ld x0 r0_44) (View.ld x0 r0_45)⟩,
      ⟨r0_35, chunk (View.ld x1 r0_0) (View.ld x2 r0_1) (View.ld x3 r0_1) (View.ld x4 r0_2) (View.ld x0 r0_25) (View.ld x0 r0_26) (View.ld x0 r0_27) (View.ld x0 r0_28) (View.ld x0 r0_29) (View.ld x0 r0_30) (View.ld x0 r0_31) (View.ld x0 r0_32) (View.ld x0 r0_33) (View.ld x0 r0_34)⟩,
      ⟨r0_24, chunk (View.ld x1 r0_0) (View.ld x2 r0_1) (View.ld x3 r0_1) (View.ld x4 r0_2) (View.ld x0 r0_14) (View.ld x0 r0_15) (View.ld x0 r0_16) (View.ld x0 r0_17) (View.ld x0 r0_18) (View.ld x0 r0_19) (View.ld x0 r0_20) (View.ld x0 r0_21) (View.ld x0 r0_22) (View.ld x0 r0_23)⟩,
      ⟨r0_13, chunk (View.ld x1 r0_0) (View.ld x2 r0_1) (View.ld x3 r0_1) (View.ld x4 r0_2) (View.ld x0 r0_3) (View.ld x0 r0_4) (View.ld x0 r0_5) (View.ld x0 r0_6) (View.ld x0 r0_7) (View.ld x0 r0_8) (View.ld x0 r0_9) (View.ld x0 r0_10) (View.ld x0 r0_11) (View.ld x0 r0_12)⟩] : List (View.Piece (Elt F) S128x4096 .f32)) := rfl

/-- The k-th shifted input rectangle of the chunk at column offset o, at (p, q), is entry k of the window of the
    time step the chunk's store rectangle puts (p, q) at. -/
theorem ld_window (x0 : Vec Ideal S128x4224 .f32) (o k : Nat) (hk : k < 10)
    (h : ∀ a, (![0, o + k] : Fin 2 → Nat) a + S128x256.size a ≤ S128x4224.size a)
    (hs : ∀ a, (![0, o] : Fin 2 → Nat) a + S128x256.size a ≤ S128x4096.size a) (p : Fin 128) (q : Fin 256) :
    View.ld x0 (Rect.unit (s := S128x4224) ![0, o + k] S128x256.size h) (ix2 p q)
      = window x0 ((Rect.unit (s := S128x4096) ![0, o] S128x256.size hs).emb (ix2 p q) 0)
          ((Rect.unit (s := S128x4096) ![0, o] S128x256.size hs).emb (ix2 p q) 1) ⟨k, hk⟩ := by
  unfold window
  refine congrArg x0 (funext fun a => Fin.ext ?_)
  match a with
  | ⟨0, _⟩ => rfl
  | ⟨1, _⟩ =>
    show o + k + 1 * q.val = (o + 1 * q.val) + k
    omega

/-- A chunk at column offset o is the block function under its store rectangle. -/
theorem chunk_piece (x0 : Vec Ideal S128x4224 .f32) (x1 : Vec Ideal S32x10 .f32) (x2 x3 : Vec Ideal S32x1 .f32)
    (x4 : Vec Ideal S1x1 .f32) (o : Nat)
    (h0 : ∀ a, (![0, o] : Fin 2 → Nat) a + S128x256.size a ≤ S128x4224.size a)
    (h1 : ∀ a, (![0, o + 1] : Fin 2 → Nat) a + S128x256.size a ≤ S128x4224.size a)
    (h2 : ∀ a, (![0, o + 2] : Fin 2 → Nat) a + S128x256.size a ≤ S128x4224.size a)
    (h3 : ∀ a, (![0, o + 3] : Fin 2 → Nat) a + S128x256.size a ≤ S128x4224.size a)
    (h4 : ∀ a, (![0, o + 4] : Fin 2 → Nat) a + S128x256.size a ≤ S128x4224.size a)
    (h5 : ∀ a, (![0, o + 5] : Fin 2 → Nat) a + S128x256.size a ≤ S128x4224.size a)
    (h6 : ∀ a, (![0, o + 6] : Fin 2 → Nat) a + S128x256.size a ≤ S128x4224.size a)
    (h7 : ∀ a, (![0, o + 7] : Fin 2 → Nat) a + S128x256.size a ≤ S128x4224.size a)
    (h8 : ∀ a, (![0, o + 8] : Fin 2 → Nat) a + S128x256.size a ≤ S128x4224.size a)
    (h9 : ∀ a, (![0, o + 9] : Fin 2 → Nat) a + S128x256.size a ≤ S128x4224.size a)
    (hs : ∀ a, (![0, o] : Fin 2 → Nat) a + S128x256.size a ≤ S128x4096.size a)
    (x : (Rect.unit (s := S128x4096) ![0, o] S128x256.size hs).shape.Idx) :
    chunk x1 x2 x3 x4 (View.ld x0 (Rect.unit (s := S128x4224) ![0, o] S128x256.size h0))
        (View.ld x0 (Rect.unit (s := S128x4224) ![0, o + 1] S128x256.size h1))
        (View.ld x0 (Rect.unit (s := S128x4224) ![0, o + 2] S128x256.size h2))
        (View.ld x0 (Rect.unit (s := S128x4224) ![0, o + 3] S128x256.size h3))
        (View.ld x0 (Rect.unit (s := S128x4224) ![0, o + 4] S128x256.size h4))
        (View.ld x0 (Rect.unit (s := S128x4224) ![0, o + 5] S128x256.size h5))
        (View.ld x0 (Rect.unit (s := S128x4224) ![0, o + 6] S128x256.size h6))
        (View.ld x0 (Rect.unit (s := S128x4224) ![0, o + 7] S128x256.size h7))
        (View.ld x0 (Rect.unit (s := S128x4224) ![0, o + 8] S128x256.size h8))
        (View.ld x0 (Rect.unit (s := S128x4224) ![0, o + 9] S128x256.size h9)) x
      = blockOut x0 x1 x2 x3 x4 ((Rect.unit (s := S128x4096) ![0, o] S128x256.size hs).emb x) := by
  obtain ⟨p, q, rfl⟩ : ∃ (p : Fin 128) (q : Fin 256), x = ix2 p q := ⟨x 0, x 1, eq_ix2 x⟩
  rw [chunk_apply]
  unfold blockOut
  congr 1
  funext k
  fin_cases k
  · exact ld_window x0 o 0 (by decide) h0 hs p q
  · exact ld_window x0 o 1 (by decide) h1 hs p q
  · exact ld_window x0 o 2 (by decide) h2 hs p q
  · exact ld_window x0 o 3 (by decide) h3 hs p q
  · exact ld_window x0 o 4 (by decide) h4 hs p q
  · exact ld_window x0 o 5 (by decide) h5 hs p q
  · exact ld_window x0 o 6 (by decide) h6 hs p q
  · exact ld_window x0 o 7 (by decide) h7 hs p q
  · exact ld_window x0 o 8 (by decide) h8 hs p q
  · exact ld_window x0 o 9 (by decide) h9 hs p q

/-- THE OUTPUT BLOCK after the body is the block function of the input blocks. -/
theorem out0_5_eq (x0 : Vec Ideal S128x4224 .f32) (x1 : Vec Ideal S32x10 .f32) (x2 x3 : Vec Ideal S32x1 .f32)
    (x4 : Vec Ideal S1x1 .f32) : out0_5 x0 x1 x2 x3 x4 = blockOut x0 x1 x2 x3 x4 := by
  funext y
  have hz : (![0, 0] : Fin 2 → Nat) = fun _ => 0 := funext fun a => by fin_cases a <;> rfl
  rw [out0_5_chunks]
  simp only [View.ld_unit_zero (S := S32x10) hz, View.ld_unit_zero (S := S32x1) hz, View.ld_unit_zero (S := S1x1) hz]
  refine View.canon_apply_of_pieces (blockOut x0 x1 x2 x3 x4) _ (fun pc hpc => ?_) y (cover0_5 _ _ _ _ _ _ _ _ _ _ _ _ _ _ _ _ y)
  simp only [List.mem_cons, List.mem_nil_iff, or_false] at hpc
  rcases hpc with rfl | rfl | rfl | rfl | rfl | rfl | rfl | rfl | rfl | rfl | rfl | rfl | rfl | rfl | rfl | rfl
  · exact chunk_piece x0 x1 x2 x3 x4 3840 inb_S128x4224_S128x256_0_3840 inb_S128x4224_S128x256_0_3841 inb_S128x4224_S128x256_0_3842 inb_S128x4224_S128x256_0_3843 inb_S128x4224_S128x256_0_3844 inb_S128x4224_S128x256_0_3845 inb_S128x4224_S128x256_0_3846 inb_S128x4224_S128x256_0_3847 inb_S128x4224_S128x256_0_3848 inb_S128x4224_S128x256_0_3849 inb_S128x4096_S128x256_0_3840
  · exact chunk_piece x0 x1 x2 x3 x4 3584 inb_S128x4224_S128x256_0_3584 inb_S128x4224_S128x256_0_3585 inb_S128x4224_S128x256_0_3586 inb_S128x4224_S128x256_0_3587 inb_S128x4224_S128x256_0_3588 inb_S128x4224_S128x256_0_3589 inb_S128x4224_S128x256_0_3590 inb_S128x4224_S128x256_0_3591 inb_S128x4224_S128x256_0_3592 inb_S128x4224_S128x256_0_3593 inb_S128x4096_S128x256_0_3584
  · exact chunk_piece x0 x1 x2 x3 x4 3328 inb_S128x4224_S128x256_0_3328 inb_S128x4224_S128x256_0_3329 inb_S128x4224_S128x256_0_3330 inb_S128x4224_S128x256_0_3331 inb_S128x4224_S128x256_0_3332 inb_S128x4224_S128x256_0_3333 inb_S128x4224_S128x256_0_3334 inb_S128x4224_S128x256_0_3335 inb_S128x4224_S128x256_0_3336 inb_S128x4224_S128x256_0_3337 inb_S128x4096_S128x256_0_3328
  · exact chunk_piece x0 x1 x2 x3 x4 3072 inb_S128x4224_S128x256_0_3072 inb_S128x4224_S128x256_0_3073 inb_S128x4224_S128x256_0_3074 inb_S128x4224_S128x256_0_3075 inb_S128x4224_S128x256_0_3076 inb_S128x4224_S128x256_0_3077 inb_S128x4224_S128x256_0_3078 inb_S128x4224_S128x256_0_3079 inb_S128x4224_S128x256_0_3080 inb_S128x4224_S128x256_0_3081 inb_S128x4096_S128x256_0_3072
  · exact chunk_piece x0 x1 x2 x3 x4 2816 inb_S128x4224_S128x256_0_2816 inb_S128x4224_S128x256_0_2817 inb_S128x4224_S128x256_0_2818 inb_S128x4224_S128x256_0_2819 inb_S128x4224_S128x256_0_2820 inb_S128x4224_S128x256_0_2821 inb_S128x4224_S128x256_0_2822 inb_S128x4224_S128x256_0_2823 inb_S128x4224_S128x256_0_2824 inb_S128x4224_S128x256_0_2825 inb_S128x4096_S128x256_0_2816
  · exact chunk_piece x0 x1 x2 x3 x4 2560 inb_S128x4224_S128x256_0_2560 inb_S128x4224_S128x256_0_2561 inb_S128x4224_S128x256_0_2562 inb_S128x4224_S128x256_0_2563 inb_S128x4224_S128x256_0_2564 inb_S128x4224_S128x256_0_2565 inb_S128x4224_S128x256_0_2566 inb_S128x4224_S128x256_0_2567 inb_S128x4224_S128x256_0_2568 inb_S128x4224_S128x256_0_2569 inb_S128x4096_S128x256_0_2560
  · exact chunk_piece x0 x1 x2 x3 x4 2304 inb_S128x4224_S128x256_0_2304 inb_S128x4224_S128x256_0_2305 inb_S128x4224_S128x256_0_2306 inb_S128x4224_S128x256_0_2307 inb_S128x4224_S128x256_0_2308 inb_S128x4224_S128x256_0_2309 inb_S128x4224_S128x256_0_2310 inb_S128x4224_S128x256_0_2311 inb_S128x4224_S128x256_0_2312 inb_S128x4224_S128x256_0_2313 inb_S128x4096_S128x256_0_2304
  · exact chunk_piece x0 x1 x2 x3 x4 2048 inb_S128x4224_S128x256_0_2048 inb_S128x4224_S128x256_0_2049 inb_S128x4224_S128x256_0_2050 inb_S128x4224_S128x256_0_2051 inb_S128x4224_S128x256_0_2052 inb_S128x4224_S128x256_0_2053 inb_S128x4224_S128x256_0_2054 inb_S128x4224_S128x256_0_2055 inb_S128x4224_S128x256_0_2056 inb_S128x4224_S128x256_0_2057 inb_S128x4096_S128x256_0_2048
  · exact chunk_piece x0 x1 x2 x3 x4 1792 inb_S128x4224_S128x256_0_1792 inb_S128x4224_S128x256_0_1793 inb_S128x4224_S128x256_0_1794 inb_S128x4224_S128x256_0_1795 inb_S128x4224_S128x256_0_1796 inb_S128x4224_S128x256_0_1797 inb_S128x4224_S128x256_0_1798 inb_S128x4224_S128x256_0_1799 inb_S128x4224_S128x256_0_1800 inb_S128x4224_S128x256_0_1801 inb_S128x4096_S128x256_0_1792
  · exact chunk_piece x0 x1 x2 x3 x4 1536 inb_S128x4224_S128x256_0_1536 inb_S128x4224_S128x256_0_1537 inb_S128x4224_S128x256_0_1538 inb_S128x4224_S128x256_0_1539 inb_S128x4224_S128x256_0_1540 inb_S128x4224_S128x256_0_1541 inb_S128x4224_S128x256_0_1542 inb_S128x4224_S128x256_0_1543 inb_S128x4224_S128x256_0_1544 inb_S128x4224_S128x256_0_1545 inb_S128x4096_S128x256_0_1536
  · exact chunk_piece x0 x1 x2 x3 x4 1280 inb_S128x4224_S128x256_0_1280 inb_S128x4224_S128x256_0_1281 inb_S128x4224_S128x256_0_1282 inb_S128x4224_S128x256_0_1283 inb_S128x4224_S128x256_0_1284 inb_S128x4224_S128x256_0_1285 inb_S128x4224_S128x256_0_1286 inb_S128x4224_S128x256_0_1287 inb_S128x4224_S128x256_0_1288 inb_S128x4224_S128x256_0_1289 inb_S128x4096_S128x256_0_1280
  · exact chunk_piece x0 x1 x2 x3 x4 1024 inb_S128x4224_S128x256_0_1024 inb_S128x4224_S128x256_0_1025 inb_S128x4224_S128x256_0_1026 inb_S128x4224_S128x256_0_1027 inb_S128x4224_S128x256_0_1028 inb_S128x4224_S128x256_0_1029 inb_S128x4224_S128x256_0_1030 inb_S128x4224_S128x256_0_1031 inb_S128x4224_S128x256_0_1032 inb_S128x4224_S128x256_0_1033 inb_S128x4096_S128x256_0_1024
  · exact chunk_piece x0 x1 x2 x3 x4 768 inb_S128x4224_S128x256_0_768 inb_S128x4224_S128x256_0_769 inb_S128x4224_S128x256_0_770 inb_S128x4224_S128x256_0_771 inb_S128x4224_S128x256_0_772 inb_S128x4224_S128x256_0_773 inb_S128x4224_S128x256_0_774 inb_S128x4224_S128x256_0_775 inb_S128x4224_S128x256_0_776 inb_S128x4224_S128x256_0_777 inb_S128x4096_S128x256_0_768
  · exact chunk_piece x0 x1 x2 x3 x4 512 inb_S128x4224_S128x256_0_512 inb_S128x4224_S128x256_0_513 inb_S128x4224_S128x256_0_514 inb_S128x4224_S128x256_0_515 inb_S128x4224_S128x256_0_516 inb_S128x4224_S128x256_0_517 inb_S128x4224_S128x256_0_518 inb_S128x4224_S128x256_0_519 inb_S128x4224_S128x256_0_520 inb_S128x4224_S128x256_0_521 inb_S128x4096_S128x256_0_512
  · exact chunk_piece x0 x1 x2 x3 x4 256 inb_S128x4224_S128x256_0_256 inb_S128x4224_S128x256_0_257 inb_S128x4224_S128x256_0_258 inb_S128x4224_S128x256_0_259 inb_S128x4224_S128x256_0_260 inb_S128x4224_S128x256_0_261 inb_S128x4224_S128x256_0_262 inb_S128x4224_S128x256_0_263 inb_S128x4224_S128x256_0_264 inb_S128x4224_S128x256_0_265 inb_S128x4096_S128x256_0_256
  · exact chunk_piece x0 x1 x2 x3 x4 0 inb_S128x4224_S128x256_0_0 inb_S128x4224_S128x256_0_1 inb_S128x4224_S128x256_0_2 inb_S128x4224_S128x256_0_3 inb_S128x4224_S128x256_0_4 inb_S128x4224_S128x256_0_5 inb_S128x4224_S128x256_0_6 inb_S128x4224_S128x256_0_7 inb_S128x4224_S128x256_0_8 inb_S128x4224_S128x256_0_9 inb_S128x4096_S128x256_0_0

end Cert.WindowMlp

end
-- ==== Proof.KernelArray.lean ====
/-
  The kernel's output array after the region, and its first 4086 columns as the network's output.

  The region runs over 16 points; point t takes rows 128·t … 128·t + 127 of the padded series [2048, 4224] and of the
  output [2048, 4096], and the whole of each weight array. What point t writes back is therefore block t of ONE function
  of the arrays as the region finds them: entry (b, j) is the network's output from the window x̃[b, j], …, x̃[b, j + 9] of
  the padded series x̃. The sixteen blocks tile the output array, so the array ends holding that function.

  Before the region the host pads the series with 128 columns on the right and recasts the bias vectors and the second
  layer's weights [1, 32] as columns. For a time step i < 4086 the window ends at column i + 9 < 4096, inside the series
  itself: the padding is never read there, and the first 4086 columns of the output array are the network's output.
-/
import proofs.«176096_j51960514347079_2_alg».proof.Proof.Gen.KernelIdeal.Frame
import proofs.«176096_j51960514347079_2_alg».proof.Proof.Payloads
import Idealize.ShloMosaic.Lib.KernelVsHost
import Idealize.ShloMosaic.Lib.StableHlo.Run

set_option maxRecDepth 16384

noncomputable section

namespace Cert.WindowMlp

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The output array as one function of the padded series and the weights as the region finds them. -/
def arrayOut (xp : Vec Ideal S2048x4224 .f32) (W : Vec Ideal S32x10 .f32) (b1 W2 : Vec Ideal S32x1 .f32)
    (b2 : Vec Ideal S1x1 .f32) : Vec Ideal S2048x4096 .f32 :=
  fun i => cell (window xp (i 0) (i 1)) (fun h k => W (ix2 h k)) (fun h => b1 (ix2 h (0 : Fin 1)))
    (fun h => W2 (ix2 h (0 : Fin 1))) (b2 (ix2 (0 : Fin 1) (0 : Fin 1)))

/-- The printed index maps over the grid: the series and the output move together, one block of rows per point, and
    stay at column block 0; the weights stay at block (0, 0). -/
theorem idx_facts : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val :=
  (by decide +kernel : ∀ t : Fin grid0.N, _)

/-- WHAT POINT t WRITES BACK is block t of the array function of the arrays as the region finds them. -/
theorem flushed_eq (c : Dev nD) (t : Fin cfg0.N) :
    (dats m 0 c).flushed 5 t = ((cfg0.win 5).blk t).view.read (Elt Ideal)
      (arrayOut (V m c main_v0) (V m c main_arg1) (V m c main_v1) (V m c main_v2) (V m c main_v3)) := by
  show (cfg0.win 5).cut (grid0.coords t) ((dats m 0 c).after 5 t) = _
  rw [after0_5, out0_5_eq]
  obtain ⟨e0, e1, e2, e3, e4, e5, e6, e7, e8, e9, e10, e11⟩ := idx_facts t
  funext j
  show blockOut (iblk m c 0 t) (iblk m c 1 t) (iblk m c 2 t) (iblk m c 3 t) (iblk m c 4 t) j
    = arrayOut (V m c main_v0) (V m c main_arg1) (V m c main_v1) (V m c main_v2) (V m c main_v3) (((cfg0.win 5).blk t).view.emb j)
  unfold blockOut arrayOut
  have hj0 : (j 0).val < 128 := (j 0).isLt
  have hj1 : (j 1).val < 4096 := (j 1).isLt
  have hw : window (iblk m c 0 t) (j 0) (j 1)
      = window (V m c main_v0) (((cfg0.win 5).blk t).view.emb j 0) (((cfg0.win 5).blk t).view.emb j 1) := by
    funext k
    have hk : k.val < 10 := k.isLt
    show V m c main_v0 (((cfg0.win 0).blk t).view.emb (ix2 (j 0) ⟨(j 1).val + k.val, by omega⟩)) = V m c main_v0 _
    refine congrArg _ (funext fun a => Fin.ext ?_)
    match a with
    | ⟨0, _⟩ =>
      show win0_0.index t (0 : Fin 2) * 128 + 1 * (j 0).val = win0_5.index t (0 : Fin 2) * 128 + 1 * (j 0).val
      omega
    | ⟨1, _⟩ =>
      show win0_0.index t (1 : Fin 2) * 4224 + 1 * ((j 1).val + k.val) = (win0_5.index t (1 : Fin 2) * 4096 + 1 * (j 1).val) + k.val
      omega
  have h1 : (fun (h : Fin 32) (k : Fin 10) => iblk m c 1 t (ix2 h k)) = fun h k => V m c main_arg1 (ix2 h k) := by
    funext h k
    show V m c main_arg1 (((cfg0.win 1).blk t).view.emb (ix2 h k)) = _
    refine congrArg _ (funext fun a => Fin.ext ?_)
    match a with
    | ⟨0, _⟩ => show win0_1.index t (0 : Fin 2) * 32 + 1 * h.val = h.val; omega
    | ⟨1, _⟩ => show win0_1.index t (1 : Fin 2) * 10 + 1 * k.val = k.val; omega
  have h2 : (fun (h : Fin 32) => iblk m c 2 t (ix2 h (0 : Fin 1))) = fun h => V m c main_v1 (ix2 h (0 : Fin 1)) := by
    funext h
    show V m c main_v1 (((cfg0.win 2).blk t).view.emb (ix2 h (0 : Fin 1))) = _
    refine congrArg _ (funext fun a => Fin.ext ?_)
    match a with
    | ⟨0, _⟩ => show win0_2.index t (0 : Fin 2) * 32 + 1 * h.val = h.val; omega
    | ⟨1, _⟩ => show win0_2.index t (1 : Fin 2) * 1 + 1 * 0 = 0; omega
  have h3 : (fun (h : Fin 32) => iblk m c 3 t (ix2 h (0 : Fin 1))) = fun h => V m c main_v2 (ix2 h (0 : Fin 1)) := by
    funext h
    show V m c main_v2 (((cfg0.win 3).blk t).view.emb (ix2 h (0 : Fin 1))) = _
    refine congrArg _ (funext fun a => Fin.ext ?_)
    match a with
    | ⟨0, _⟩ => show win0_3.index t (0 : Fin 2) * 32 + 1 * h.val = h.val; omega
    | ⟨1, _⟩ => show win0_3.index t (1 : Fin 2) * 1 + 1 * 0 = 0; omega
  have h4 : iblk m c 4 t (ix2 (0 : Fin 1) (0 : Fin 1)) = V m c main_v3 (ix2 (0 : Fin 1) (0 : Fin 1)) := by
    show V m c main_v3 (((cfg0.win 4).blk t).view.emb (ix2 (0 : Fin 1) (0 : Fin 1))) = _
    refine congrArg _ (funext fun a => Fin.ext ?_)
    match a with
    | ⟨0, _⟩ => show win0_4.index t (0 : Fin 2) * 1 + 1 * 0 = 0; omega
    | ⟨1, _⟩ => show win0_4.index t (1 : Fin 2) * 1 + 1 * 0 = 0; omega
  rw [hw, h1, h2, h3, h4]

/-- An index of the output array is in point t's block iff each coordinate is in the block's range on its axis. -/
theorem mem_blk (t : Fin cfg0.N) (i : S2048x4096.Idx) :
    i ∈ ((cfg0.win 5).blk t).view.set ↔ ∀ a : Fin 2, win0_5.index t a * S128x4096.size a ≤ (i a).val
      ∧ (i a).val < win0_5.index t a * S128x4096.size a + S128x4096.size a := by
  show i ∈ ((View.whole main_v4).slice (win0_5.rect t)).set ↔ _
  rw [View.set_slice_whole, Rect.mem_set_unit]
  exact Iff.rfl

/-- Every index of the output array is in the block of the point its row's block of 128 names. -/
theorem cover (i : S2048x4096.Idx) :
    ∃ t : Fin cfg0.N, (cfg0.win 5).flush t = true ∧ i ∈ ((cfg0.win 5).blk t).view.set := by
  have hN : grid0.N = 16 := N_0
  have hi0 : (i 0).val < 2048 := (i 0).isLt
  have hi1 : (i 1).val < 4096 := (i 1).isLt
  refine ⟨⟨(i 0).val / 128, by show _ < grid0.N; omega⟩, flush0_5 _, ?_⟩
  rw [mem_blk]
  obtain ⟨e0, e1, e2, e3, e4, e5, e6, e7, e8, e9, e10, e11⟩ := idx_facts ⟨(i 0).val / 128, by show _ < grid0.N; omega⟩
  have e11' : win0_5.index ⟨(i 0).val / 128, by show _ < grid0.N; omega⟩ (0 : Fin 2) = (i 0).val / 128 := e11
  intro a
  match a with
  | ⟨0, _⟩ =>
    show win0_5.index _ (0 : Fin 2) * 128 ≤ (i 0).val ∧ (i 0).val < win0_5.index _ (0 : Fin 2) * 128 + 128
    omega
  | ⟨1, _⟩ =>
    show win0_5.index _ (1 : Fin 2) * 4096 ≤ (i 1).val ∧ (i 1).val < win0_5.index _ (1 : Fin 2) * 4096 + 4096
    omega

/-- THE OUTPUT ARRAY after the region is the array function of the arrays as the region finds them. -/
theorem final (c : Dev nD) : (dats m 0 c).arrAt 5 cfg0.N
    = arrayOut (V m c main_v0) (V m c main_arg1) (V m c main_v1) (V m c main_v2) (V m c main_v3) :=
  (dats m 0 c).arrAt_eq_of_cover 5 _ (fun t _ => flushed_eq m c t) cover

end Cert.WindowMlp

end
-- ==== Proof.KernelValue.lean ====
/-
  The kernel program's result: the network's 4086 outputs per row with the first output repeated ten times in front.

  After the region the host keeps the first 4086 columns of the output array — the network's output (the windows of those
  time steps never reach the padding) —, repeats column 0 ten times and puts those ten columns in front.
-/
import proofs.«176096_j51960514347079_2_alg».proof.Proof.KernelArray

set_option maxRecDepth 16384

noncomputable section

namespace Cert.WindowMlp

open Idealize.ShloMosaic Idealize.ShloMosaic.TcCoe Idealize.ShloMosaic.ValueIdx Idealize.SL.Sem Idealize.ShloMosaic.StableHlo
open Cert.KernelIdeal Cert.KernelIdeal.Gen

variable {F : FTy → Type} [FloatOps F]

/-- An array of 4086 columns with its first column repeated ten times in front: 4096 columns. -/
def withHead (y : FVec F S2048x4086 .f32) : FVec F S2048x4096 .f32 :=
  concatenate S2048x4096 1 [⟨S2048x10, broadcastInDim S2048x10 ![0, 1] bcast_S2048x1_S2048x10_0_1
    (extractStridedSlice S2048x1 ![0, 0] y slices_S2048x4086_S2048x1_0_0)⟩, ⟨S2048x4086, y⟩]
    concatenates_S2048x10_S2048x4086_S2048x4096_d1

variable (m : (ℓ : Loc nD τ sig) → Buf (Elt Ideal) ℓ)

/-- The padded series as the region finds it, inside the series: the series itself. -/
theorem padded_apply (c : Dev nD) (b : Fin 2048) (j : Fin 4224) (hj : j.val < 4096) :
    V m c main_v0 (ix2 b j) = m ((c : Thread nD τ).loc main_arg0) (ix2 b ⟨j.val, hj⟩) := by
  have e : (V m c main_v0 : S2048x4224.Idx → EReal)
      = pad S2048x4224 ![0, 0] ![0, 128] ![0, 0] (m ((c : Thread nD τ).loc main_arg0))
          (sitofp .f32 (constantI S_ 32 0#32) : FVec Ideal S_ .f32) pads_S2048x4096_S2048x4224_000_01280 h_S_ := by
    dsimp only [V, V0]
    simp only [hostOps0, hostOps0_1, hostOps0_2, List.flatten_cons, List.flatten_nil, List.append_nil, List.cons_append,
      List.nil_append]
    after_results
    rfl
  rw [e]
  exact pad_apply_of_inside _ _ _ _ _ pads_S2048x4096_S2048x4224_000_01280 h_S_ (ix2 b j) (ix2 b ⟨j.val, hj⟩) (fun a => by
    match a with
    | ⟨0, _⟩ => show b.val = 0 + b.val * (0 + 1); omega
    | ⟨1, _⟩ => show j.val = 0 + j.val * (0 + 1); omega)

/-- The first bias as the region finds it, a column: entry h of the bias vector. -/
theorem bias1_col (c : Dev nD) (h : Fin 32) :
    V m c main_v1 (ix2 h (0 : Fin 1)) = m ((c : Thread nD τ).loc main_arg2) (ix1 h) := by
  have e : (V m c main_v1 : S32x1.Idx → EReal) = shapeCast S32x1 (m ((c : Thread nD τ).loc main_arg2)) shapeCasts_S32_S32x1 := by
    dsimp only [V, V0]
    simp only [hostOps0, hostOps0_1, hostOps0_2, List.flatten_cons, List.flatten_nil, List.append_nil, List.cons_append,
      List.nil_append]
    after_results
    rfl
  rw [e]
  exact shapeCast_apply _ shapeCasts_S32_S32x1 (ix2 h (0 : Fin 1)) (ix1 h) (by
    rw [Shape.rowMajor_val_one, Shape.rowMajor_val_two]
    show h.val = h.val * 1 + 0
    omega)

/-- The second layer's weights as the region finds them, a column: entry (0, h) of the [1, 32] weights. -/
theorem weights2_col (c : Dev nD) (h : Fin 32) :
    V m c main_v2 (ix2 h (0 : Fin 1)) = m ((c : Thread nD τ).loc main_arg3) (ix2 (0 : Fin 1) h) := by
  have e : (V m c main_v2 : S32x1.Idx → EReal) = shapeCast S32x1 (m ((c : Thread nD τ).loc main_arg3)) shapeCasts_S1x32_S32x1 := by
    dsimp only [V, V0]
    simp only [hostOps0, hostOps0_1, hostOps0_2, List.flatten_cons, List.flatten_nil, List.append_nil, List.cons_append,
      List.nil_append]
    after_results
    rfl
  rw [e]
  exact shapeCast_apply _ shapeCasts_S1x32_S32x1 (ix2 h (0 : Fin 1)) (ix2 (0 : Fin 1) h) (by
    rw [Shape.rowMajor_val_two, Shape.rowMajor_val_two]
    show 0 * 32 + h.val = h.val * 1 + 0
    omega)

/-- The second bias as the region finds it, [1, 1]: the bias. -/
theorem bias2_cell (c : Dev nD) :
    V m c main_v3 (ix2 (0 : Fin 1) (0 : Fin 1)) = m ((c : Thread nD τ).loc main_arg4) (ix1 (0 : Fin 1)) := by
  have e : (V m c main_v3 : S1x1.Idx → EReal) = shapeCast S1x1 (m ((c : Thread nD τ).loc main_arg4)) shapeCasts_S1_S1x1 := by
    dsimp only [V, V0]
    simp only [hostOps0, hostOps0_1, hostOps0_2, List.flatten_cons, List.flatten_nil, List.append_nil, List.cons_append,
      List.nil_append]
    after_results
    rfl
  rw [e]
  exact shapeCast_apply _ shapeCasts_S1_S1x1 (ix2 (0 : Fin 1) (0 : Fin 1)) (ix1 (0 : Fin 1)) (by
    rw [Shape.rowMajor_val_one, Shape.rowMajor_val_two]
    rfl)

/-- THE FIRST 4086 COLUMNS of the output array after the region are the network's output of the argument arrays. -/
theorem kernel_cols (c : Dev nD) :
    extractStridedSlice S2048x4086 ![0, 0] ((dats m 0 c).arrAt 5 cfg0.N) slices_S2048x4096_S2048x4086_0_0
      = netOut (m ((c : Thread nD τ).loc main_arg0)) (m ((c : Thread nD τ).loc main_arg1)) (m ((c : Thread nD τ).loc main_arg2))
          (m ((c : Thread nD τ).loc main_arg3)) (m ((c : Thread nD τ).loc main_arg4)) := by
  rw [final]
  funext i
  obtain ⟨b, j, rfl⟩ : ∃ (b : Fin 2048) (j : Fin 4086), i = ix2 b j := ⟨i 0, i 1, eq_ix2 i⟩
  have hj : j.val < 4086 := j.isLt
  refine (extractStridedSlice_apply _ _ slices_S2048x4096_S2048x4086_0_0 (ix2 b j) (ix2 b ⟨j.val, by omega⟩) (fun a => by
    match a with
    | ⟨0, _⟩ => show b.val = 0 + b.val; omega
    | ⟨1, _⟩ => show j.val = 0 + j.val; omega)).trans ?_
  unfold arrayOut netOut
  refine congr (congr (congr (congr (congrArg cell ?_) ?_) ?_) ?_) ?_
  · funext k
    have hk : k.val < 10 := k.isLt
    exact padded_apply m c b ⟨j.val + k.val, by omega⟩ (by show j.val + k.val < 4096; omega)
  · funext h k
    rw [V_main_arg1]
  · funext h
    exact bias1_col m c h
  · funext h
    exact weights2_col m c h
  · exact bias2_cell m c

/-- The program's result after the lines that follow the region: the first 4086 columns of the output array with their
    first column repeated ten times in front. -/
theorem result_eq (c : Dev nD) :
    (Pipeline.afterTail₀ cfgs (dats m) 0 (V0 m) [hostOps1] c main_v8 : S2048x4096.Idx → EReal)
      = withHead (F := Ideal) (extractStridedSlice S2048x4086 ![0, 0] ((dats m 0 c).arrAt 5 cfg0.N) slices_S2048x4096_S2048x4086_0_0) := by
  unfold Pipeline.afterTail₀
  show StableHlo.after hostOps1 _ (Proc.devRef .tc main_v8) = _
  after_results
  have e : (Pipeline.withArrays (cfgs 0).spec c (V0 m c) (fun w => (dats m 0 c).arrAt w (cfgs 0).N)
      (Proc.devRef .tc main_v4) : S2048x4096.Idx → EReal) = (dats m 0 c).arrAt 5 cfg0.N :=
    Pipeline.withArrays_arr spec0 launch0.win.arr_inj c (V0 m c) _ 5
  rw [e]
  rfl

/-- THE RUN, READ: every weakly fair execution of the kernel program ends with its result the network's output with
    the first output repeated in front, and its arguments as launched. -/
theorem run (ρ : Dev nD → PrngReg) :
    θ_run defs (onTc (τ := τ) (main (F := Ideal))) ⟨m, fun _ => 0, ρ⟩ fun r => ∀ c : Dev nD,
      (r.2.mem ((c.tc : Thread nD τ).loc main_v8) : S2048x4096.Idx → EReal)
        = withHead (F := Ideal) (netOut (m ((c : Thread nD τ).loc main_arg0)) (m ((c : Thread nD τ).loc main_arg1))
            (m ((c : Thread nD τ).loc main_arg2)) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v8 (Pipeline.mem_restRefs_of main_v8 (by decide) (by decide))).trans
        ((result_eq m c).trans (congrArg (withHead (F := Ideal)) (kernel_cols m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.WindowMlp

end
-- ==== Proof.LibWindowGather.lean ====
/-
  General lemma: a host gather of single columns read at an index.

  The operand is a matrix [B, T]; the start indices are an array [n, w, 1] of column numbers; the result [B, n, w] takes,
  for every row b, the operand's entry in the column that the start index at (i, k) names: whole rows are the slices'
  one kept axis, the column axis is collapsed. Read at (b, i, k) it is the operand at row b and at that column, the
  column number read as a signed integer and clamped into [0, T − 1]. Nothing here mentions a program.
-/
import Idealize.ShloMosaic.Lib.ValueIdx
import Idealize.ShloMosaic.Lib.Pipeline.Value

noncomputable section

namespace Cert.WindowGatherLib

open Idealize.ShloMosaic Idealize.ShloMosaic.ValueIdx

variable {α : Type}

/-- The dimension numbers of the column gather: the result's axis 0 is the one offset axis (the rows), the operand's
    axis 1 is collapsed and is the one axis the start index addresses; the slices are [B, 1]. -/
abbrev colDims (B T n w : Nat)
    (wf : GatherDims.WF ⟨2, ![B, T]⟩ ⟨3, ![n, w, 1]⟩ ⟨3, ![B, n, w]⟩ [0] [1] [] [1] [] 2 ![B, 1]) :
    GatherDims ⟨2, ![B, T]⟩ ⟨3, ![n, w, 1]⟩ ⟨3, ![B, n, w]⟩ where
  offsetDims := [0]
  collapsedSliceDims := [1]
  operandBatchingDims := []
  startIndicesBatchingDims := []
  startIndexMap := [1]
  indexVectorDim := 2
  sliceSizes := ![B, 1]
  wf := wf

/-- THE COLUMN GATHER READ AT (b, i, k): the operand at row b and at the column the start index at (i, k) names, read
    signed and clamped into [0, T − 1]. -/
theorem colGather_apply {B T n w ww : Nat} (hT : 0 < T)
    (wf : GatherDims.WF ⟨2, ![B, T]⟩ ⟨3, ![n, w, 1]⟩ ⟨3, ![B, n, w]⟩ [0] [1] [] [1] [] 2 ![B, 1])
    (x : (⟨2, ![B, T]⟩ : Shape).Idx → α) (idx : IVec ⟨3, ![n, w, 1]⟩ ww) (b : Fin B) (i : Fin n) (k : Fin w) :
    Host.gather (colDims B T n w wf) x idx (ix3 b i k)
      = x (ix2 b ⟨min (idx (ix3 i k (0 : Fin 1))).toInt.toNat (T - 1), by omega⟩) := by
  unfold Host.gather
  congr 1
  funext a
  refine Fin.ext ?_
  match a with
  | ⟨0, _⟩ =>
    show (colDims B T n w wf).start (ix3 b i k) idx 0 + (colDims B T n w wf).batchCoord (ix3 b i k) 0
      + (colDims B T n w wf).offCoord (ix3 b i k) 0 = b.val
    rw [GatherDims.batchCoord_eq_zero _ _ _ List.not_mem_nil]
    have hs : (colDims B T n w wf).start (ix3 b i k) idx 0 = 0 := by
      unfold GatherDims.start
      rw [dif_neg (show (0 : Fin 2) ∉ ([1] : List (Fin 2)) from by decide)]
    have hm : (0 : Fin 2) ∈ (colDims B T n w wf).sKept :=
      ((colDims B T n w wf).mem_sKept 0).mpr ⟨(show (0 : Fin 2) ∉ ([1] : List (Fin 2)) from by decide), List.not_mem_nil⟩
    rw [hs]
    unfold GatherDims.offCoord
    rw [dif_pos hm]
    simp only [Nat.zero_add, Nat.add_zero]
    rfl
  | ⟨1, _⟩ =>
    show (colDims B T n w wf).start (ix3 b i k) idx 1 + (colDims B T n w wf).batchCoord (ix3 b i k) 1
      + (colDims B T n w wf).offCoord (ix3 b i k) 1 = min (idx (ix3 i k (0 : Fin 1))).toInt.toNat (T - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims B T n w wf).startIndexMap from List.mem_singleton.mpr rfl)]
    have hsi : (colDims B T n w wf).siIdx (ix3 b i k) ⟨List.idxOf (1 : Fin 2) (colDims B T n w wf).startIndexMap,
        List.idxOf_lt_length_iff.2 (List.mem_singleton.mpr rfl)⟩ = ix3 i k (0 : Fin 1) := by
      funext c; refine Fin.ext ?_
      match c with
      | ⟨0, _⟩ => rfl
      | ⟨1, _⟩ => rfl
      | ⟨2, _⟩ => rfl
    rw [hsi]
    rfl

end Cert.WindowGatherLib

end
-- ==== Proof.RefValue.lean ====
/-
  The reference program's 4086 columns before the repeated head are the network's output.

  The reference gathers, for every row b, time step i < 4086 and window position k < 10, the series' entry in column
  i + k: the column numbers are computed as 32-bit words, i + k is below 2³¹ and below 4096, so the word is i + k itself,
  it is not negative (the wrap-around branch adds nothing) and the clamp into [0, 4095] leaves it alone. Then the two
  contractions are the sums over k and over the hidden units h, the positive part is taken against the zero word, and
  1 / (1 + e^(−z)) with the word of 1.0 is the logistic function of z.
-/
import proofs.«176096_j51960514347079_2_alg».proof.Proof.Gen.ReferenceIdeal.Read
import proofs.«176096_j51960514347079_2_alg».proof.Proof.Spec
import proofs.«176096_j51960514347079_2_alg».proof.Proof.LibWindowGather
import Idealize.ShloMosaic.PureOps.Ideal.Laws

noncomputable section

namespace Cert.WindowMlp.Ref

open Idealize.ShloMosaic Idealize.ShloMosaic.ValueIdx Cert.ReferenceIdeal Cert.ReferenceIdeal.Gen Cert.ReferenceIdeal.Read
open Cert.WindowMlp

/-- The word of 1.0 is 1. -/
theorem one_word : Ideal.ofBits .f32 0x3F800000#32 = 1 := by
  simp [Ideal.ofBits, Ideal.ieee, -EReal.coe_mul]; norm_num

/-- The column number of window position k at time step i, computed in 32-bit words with the wrap-around of a negative
    index and then read signed and clamped into [0, 4095], is i + k. -/
theorem column_word (i k : Nat) (hi : i < 4086) (hk : k < 10) :
    min (Scalar.select (IntOp.cmpi .slt (IntOp.addi (BitVec.ofNat 32 i) (BitVec.ofNat 32 k)) 0#32)
      (IntOp.addi (IntOp.addi (BitVec.ofNat 32 i) (BitVec.ofNat 32 k)) 4096#32)
      (IntOp.addi (BitVec.ofNat 32 i) (BitVec.ofNat 32 k))).toInt.toNat (4096 - 1) = i + k := by
  have hw : IntOp.addi (BitVec.ofNat 32 i) (BitVec.ofNat 32 k) = BitVec.ofNat 32 (i + k) := by
    unfold IntOp.addi; rw [BitVec.ofNat_add]
  rw [hw]
  have hint : (BitVec.ofNat 32 (i + k)).toInt = ((i + k : Nat) : Int) := by
    rw [BitVec.toInt_eq_toNat_cond, BitVec.toNat_ofNat]
    have : (i + k) % 2 ^ 32 = i + k := Nat.mod_eq_of_lt (by omega)
    rw [this, if_pos (by omega)]
  have hs : IntOp.cmpi .slt (BitVec.ofNat 32 (i + k)) 0#32 = 0#1 := by
    unfold IntOp.cmpi
    show BitVec.ofBool ((BitVec.ofNat 32 (i + k)).slt 0#32) = 0#1
    rw [BitVec.slt, hint]
    have hn : ¬ (((i + k : Nat) : Int) < (0#32).toInt) := by simp; omega
    rw [decide_eq_false hn]
    rfl
  rw [hs]
  unfold Scalar.select
  rw [if_neg (by decide), hint]
  simp
  omega

/-- The gathered windows: at (b, i, k) the series at row b, column i + k. -/
theorem windows_apply (x0 : (⟨S2048x4096, .f32⟩ : BufTy).Contents (Elt Ideal)) (b : Fin 2048) (i : Fin 4086) (k : Fin 10) :
    val_main_v13 (F := Ideal) x0 (ix3 b i k) = x0 (ix2 b ⟨i.val + k.val, by omega⟩) := by
  unfold val_main_v13
  show Host.gather (Cert.WindowGatherLib.colDims 2048 4096 4086 10 gather_S2048x4096_S4086x10x1_S2048x4086x10_0_1_n_n_1_2_20481_wf)
    x0 (val_main_v12 (F := Ideal)) (ix3 b i k) = _
  rw [Cert.WindowGatherLib.colGather_apply (by decide)]
  have hcol : min (val_main_v12 (F := Ideal) (ix3 i k (0 : Fin 1))).toInt.toNat (4096 - 1) = i.val + k.val := by
    simp only [val_main_v12_apply, val_main_v11_apply, val_main_v8_apply, val_main_v10_apply, val_main_v6_apply,
      val_main_v4_apply, val_main_v5_apply, val_main_v1_apply, val_main_v3_apply, val_main_v0_apply, val_main_v2_apply,
      val_main_v7_apply, val_main_v9_apply, val_main_c_apply, val_main_c_0_apply]
    exact column_word i.val k.val i.isLt k.isLt
  exact congrArg x0 (funext fun a => Fin.ext (by
    match a with
    | ⟨0, _⟩ => rfl
    | ⟨1, _⟩ => exact hcol))

/-- A hidden unit of the reference at (b, i, h): the positive part of the window's first-layer sum plus the bias. -/
theorem hidden_apply (x0 : (⟨S2048x4096, .f32⟩ : BufTy).Contents (Elt Ideal)) (x1 : (⟨S32x10, .f32⟩ : BufTy).Contents (Elt Ideal))
    (x2 : (⟨S32, .f32⟩ : BufTy).Contents (Elt Ideal)) (b : Fin 2048) (i : Fin 4086) (h : Fin 32) :
    val_main_v18 (F := Ideal) x0 x1 x2 (ix3 b i h)
      = max ((∑ k : Fin 10, x0 (ix2 b ⟨i.val + k.val, by omega⟩) * x1 (ix2 h k)) + x2 (ix1 h)) 0 := by
  rw [val_main_v18_apply, val_main_v17_apply, val_main_v14_apply, val_main_v16_apply, val_main_v15_apply,
    val_main_call0_v0_apply, val_main_call0_cst_apply]
  simp only [Ideal.maximumf_def, Ideal.addf_def, Ideal.ofBits_def, Ideal.ofBits_zero_f32]
  refine congrArg (fun z => max z (0 : EReal)) (congr (congrArg _ (Finset.sum_congr rfl fun k _ => ?_)) ?_)
  · rw [show lidx_main_v14 (ix3 b i h) k = ix3 b i k from funext fun a => Fin.ext (by
      match a with
      | ⟨0, _⟩ => rfl
      | ⟨1, _⟩ => rfl
      | ⟨2, _⟩ => rfl), windows_apply]
    exact congrArg _ (congrArg x1 (funext fun a => Fin.ext (by
      match a with
      | ⟨0, _⟩ => rfl
      | ⟨1, _⟩ => rfl)))
  · exact congrArg x2 (funext fun a => Fin.ext (by
      match a with
      | ⟨0, _⟩ => rfl))

/-- THE REFERENCE'S 4086 COLUMNS are the network's output of its arguments. -/
theorem reference_cols (x0 : (⟨S2048x4096, .f32⟩ : BufTy).Contents (Elt Ideal)) (x1 : (⟨S32x10, .f32⟩ : BufTy).Contents (Elt Ideal))
    (x2 : (⟨S32, .f32⟩ : BufTy).Contents (Elt Ideal)) (x3 : (⟨S1x32, .f32⟩ : BufTy).Contents (Elt Ideal))
    (x4 : (⟨S1, .f32⟩ : BufTy).Contents (Elt Ideal)) :
    val_main_v31 (F := Ideal) x0 x1 x2 x3 x4 = netOut x0 x1 x2 x3 x4 := by
  funext i
  obtain ⟨b, j, rfl⟩ : ∃ (b : Fin 2048) (j : Fin 4086), i = ix2 b j := ⟨i 0, i 1, eq_ix2 i⟩
  have hb : b.val < 2048 := b.isLt
  have hj : j.val < 4086 := j.isLt
  have e29 : idx_main_v29 (ix2 b j) = ix3 b j (0 : Fin 1) := funext fun a => Fin.ext (by
    match a with
    | ⟨0, _⟩ => show (b.val * 4086 + j.val) / 4086 = b.val; omega
    | ⟨1, _⟩ => show (b.val * 4086 + j.val) / 1 % 4086 = j.val; omega
    | ⟨2, _⟩ => rfl)
  rw [val_main_v31_apply, val_main_v30_apply, val_main_cst_2_apply, val_main_v29_apply, e29, val_main_v28_apply,
    val_main_v27_apply, val_main_cst_1_apply, val_main_v26_apply, val_main_v25_apply, val_main_cst_apply,
    val_main_v24_apply, val_main_v23_apply, val_main_v22_apply, val_main_v19_apply, val_main_v21_apply, val_main_v20_apply]
  simp only [Ideal.mulf_def, Ideal.hostDivf_def, Ideal.addf_def, Ideal.hostUnary_exp_def, Ideal.hostNegf_def, Ideal.negf_def,
    Ideal.ofBits_def, one_word]
  unfold netOut cell
  refine congrArg (fun z => Ideal.ofBits .f32 0x3F000000#32 * Ideal.logistic z) (congr (congrArg _ (Finset.sum_congr rfl fun h _ => ?_)) ?_)
  · rw [show lidx_main_v19 (ix3 b j (0 : Fin 1)) h = ix3 b j h from funext fun a => Fin.ext (by
      match a with
      | ⟨0, _⟩ => rfl
      | ⟨1, _⟩ => rfl
      | ⟨2, _⟩ => rfl), hidden_apply]
    exact congrArg _ (congrArg x3 (funext fun a => Fin.ext (by
      match a with
      | ⟨0, _⟩ => rfl
      | ⟨1, _⟩ => rfl)))
  · exact congrArg x4 (funext fun a => Fin.ext (by
      match a with
      | ⟨0, _⟩ => rfl))

end Cert.WindowMlp.Ref

end
-- ==== Proof.lean ====
/-
  A sliding-window perceptron (window 10, 32 hidden units) over a [2048, 4096] series: the kernel against the reference.

  Both programs compute, for every row b and every time step i < 4086, the network's output from the window
  x[b, i], …, x[b, i + 9],
      ½ · σ( Σ_h max(Σ_k x[b, i + k] · W1[h, k] + b1[h], 0) · W2[0, h] + b2 ),
  and return it with the first output repeated ten times in front. The kernel pads the series, cuts it into 16 blocks of
  128 rows and each block into 16 chunks of 256 time steps, accumulates the ten taps of a chunk one after the other
  from zero and sums the hidden axis in the vector unit; the reference gathers all windows at once and contracts them
  against the weights. Over the extended reals the two differ only in the order of a sum and in the spelling of the
  logistic function, so the two results are equal entry by entry (no finiteness is needed).

  The frames of the two kernel programs and the reference's run are the generated ones; the idealization rewrote
  nothing, so the kernel's idealization is the kernel's own text read over the extended reals.
-/
import proofs.«176096_j51960514347079_2_alg».proof.Defs
import proofs.«176096_j51960514347079_2_alg».proof.Proof.Gen.Kernel
import proofs.«176096_j51960514347079_2_alg».proof.Proof.Gen.Kernel.Skeleton
import proofs.«176096_j51960514347079_2_alg».proof.Proof.Gen.Kernel.Launch
import proofs.«176096_j51960514347079_2_alg».proof.Proof.Gen.Kernel.Points
import proofs.«176096_j51960514347079_2_alg».proof.Proof.Gen.Kernel.Frame
import proofs.«176096_j51960514347079_2_alg».proof.Proof.Gen.KernelIdeal
import proofs.«176096_j51960514347079_2_alg».proof.Proof.Gen.KernelIdeal.Skeleton
import proofs.«176096_j51960514347079_2_alg».proof.Proof.Gen.KernelIdeal.Launch
import proofs.«176096_j51960514347079_2_alg».proof.Proof.Gen.KernelIdeal.Points
import proofs.«176096_j51960514347079_2_alg».proof.Proof.Gen.KernelIdeal.Frame
import proofs.«176096_j51960514347079_2_alg».proof.Proof.Gen.ReferenceIdeal
import proofs.«176096_j51960514347079_2_alg».proof.Proof.Gen.Pre_finite_inputs
import proofs.«176096_j51960514347079_2_alg».proof.Proof.Gen.ReferenceIdeal.Run
import proofs.«176096_j51960514347079_2_alg».proof.Proof.Gen.ReferenceIdeal.Read
import proofs.«176096_j51960514347079_2_alg».proof.Proof.KernelValue
import proofs.«176096_j51960514347079_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result is its 4086 columns with the first repeated ten times in front, and those columns are the
    network's output of its arguments. -/
theorem reference_result (x0 : (⟨Cert.ReferenceIdeal.S2048x4096, .f32⟩ : BufTy).Contents (Elt Ideal))
    (x1 : (⟨Cert.ReferenceIdeal.S32x10, .f32⟩ : BufTy).Contents (Elt Ideal))
    (x2 : (⟨Cert.ReferenceIdeal.S32, .f32⟩ : BufTy).Contents (Elt Ideal))
    (x3 : (⟨Cert.ReferenceIdeal.S1x32, .f32⟩ : BufTy).Contents (Elt Ideal))
    (x4 : (⟨Cert.ReferenceIdeal.S1, .f32⟩ : BufTy).Contents (Elt Ideal)) :
    Cert.ReferenceIdeal.Read.val_main_v34 (F := Ideal) x0 x1 x2 x3 x4
      = Cert.WindowMlp.withHead (F := Ideal) (Cert.WindowMlp.netOut x0 x1 x2 x3 x4) := by
  rw [← Cert.WindowMlp.Ref.reference_cols]
  rfl

/-- Over the extended reals the kernel program and the reference, from memories agreeing on the arguments, both end at
    the network's output with the first output repeated in front. -/
theorem algebraic : Cert.algebraic_KernelIdeal_ReferenceIdeal := by
  intro m ρ m' ρ' _ hagree
  refine ⟨fun c => Cert.WindowMlp.withHead (F := Ideal) (Cert.WindowMlp.netOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))),
    Cert.WindowMlp.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, reference_result, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
